-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S51x1024 : Shape := ⟨2, ![51, 1024]⟩
abbrev S51 : Shape := ⟨1, ![51]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S51x1024 : S_.BroadcastsInDim S51x1024 (![] : Fin 0 → Fin S51x1024.rank)
  reducesTo_S51x1024_S_d0_1 : S51x1024.ReducesTo [0, 1] S_
  bcast_S_S51 : S_.BroadcastsInDim S51 (![] : Fin 0 → Fin S51.rank)
  reducesTo_S51_S_d0 : S51.ReducesTo [0] S_

variable [Facts]

def fn_part1 {F : FTy → Type} [FloatOps F] (main_v13 : IVec S_ 1) (main_v16 : IVec S51 1) : IVec S_ 1 :=
  let main_c_5 : IVec S_ 1 := constantI S_ 1 1#1
  let main_v17 : IVec S_ 1 := (fun x v => Host.reduce IntOp.andi x v reducesTo_S51_S_d0 h_S_) main_v16 main_c_5
  let main_v18 : IVec S_ 1 := andi main_v13 main_v17
  main_v18

def fn {F : FTy → Type} [FloatOps F] (main_arg0 : FVec F S16384x1024 .f32) (main_arg1 : FVec F S51x1024 .f32) (main_arg2 : FVec F S51 .f32) (main_arg3 : FVec F S51 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S51x1024 .f32 := Host.absf main_arg1
  let main_cst_0 : FVec F S_ .f32 := constant S_ .f32 0x7F800000#32
  let main_v5 : FVec F S51x1024 .f32 := broadcastInDim S51x1024 ![] bcast_S_S51x1024 main_cst_0
  let main_v6 : IVec S51x1024 1 := cmpf .olt main_v4 main_v5
  let main_c_1 : IVec S_ 1 := constantI S_ 1 1#1
  let main_v7 : IVec S_ 1 := (fun x v => Host.reduce IntOp.andi x v reducesTo_S51x1024_S_d0_1 h_S_) main_v6 main_c_1
  let main_v8 : IVec S_ 1 := andi main_v3 main_v7
  let main_v9 : FVec F S51 .f32 := Host.absf main_arg2
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  let main_v14 : FVec F S51 .f32 := Host.absf main_arg3
  let main_cst_4 : FVec F S_ .f32 := constant S_ .f32 0x7F800000#32
  let main_v15 : FVec F S51 .f32 := broadcastInDim S51 ![] bcast_S_S51 main_cst_4
  let main_v16 : IVec S51 1 := cmpf .olt main_v14 main_v15
  fn_part1 (F := F) main_v13 main_v16
-- ==== Kernel.lean ====
abbrev S16384x1024 : Shape := ⟨2, ![16384, 1024]⟩
abbrev S51x1024 : Shape := ⟨2, ![51, 1024]⟩
abbrev S51 : Shape := ⟨1, ![51]⟩
abbrev S51x1 : Shape := ⟨2, ![51, 1]⟩
abbrev S51x16384 : Shape := ⟨2, ![51, 16384]⟩
abbrev S8x1x2048 : Shape := ⟨3, ![8, 1, 2048]⟩
abbrev S16384x51 : Shape := ⟨2, ![16384, 51]⟩
abbrev S16384 : Shape := ⟨1, ![16384]⟩
abbrev S1024x1024 : Shape := ⟨2, ![1024, 1024]⟩
abbrev S51x2048 : Shape := ⟨2, ![51, 2048]⟩
abbrev S1x1x2048 : Shape := ⟨3, ![1, 1, 2048]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S51x1024, .f32⟩
  | .hbm, ⟨2, _⟩ => ⟨S51, .f32⟩
  | .hbm, ⟨3, _⟩ => ⟨S51, .f32⟩
  | .hbm, ⟨4, _⟩ => ⟨S51x1, .f32⟩
  | .hbm, ⟨5, _⟩ => ⟨S51x1, .f32⟩
  | .hbm, ⟨6, _⟩ => ⟨S51x16384, .f32⟩
  | .hbm, ⟨7, _⟩ => ⟨S8x1x2048, .f32⟩
  | .hbm, ⟨8, _⟩ => ⟨S16384x51, .f32⟩
  | .hbm, ⟨9, _⟩ => ⟨S16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S51x1024, .f32⟩
  | .local _ .vmem, ⟨5, _⟩ => ⟨S51x1, .f32⟩
  | .local _ .vmem, ⟨6, _⟩ => ⟨S51x1, .f32⟩
  | .local _ .vmem, ⟨7, _⟩ => ⟨S51x2048, .f32⟩
  | .local _ .vmem, ⟨8, _⟩ => ⟨S51x2048, .f32⟩
  | .local _ .vmem, ⟨9, _⟩ => ⟨S1x1x2048, .f32⟩
  | .local _ .vmem, ⟨10, _⟩ => ⟨S1x1x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2_0 : Ref sig .tc := ⟨.hbm, 6, rfl⟩
abbrev main_call0_v2_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S51x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S51x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S51x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S51x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S51_S51x1 : S51.ShapeCasts S51x1
  transposes_S51x16384_S16384x51_1_0 : S51x16384.Transposes [1, 0] S16384x51
  shapeCasts_S8x1x2048_S16384 : S8x1x2048.ShapeCasts S16384
  inb_S51x1024_S51x1024_0_0 : ∀ a, (![0, 0] : Fin 2 → Nat) a + S51x1024.size a ≤ S51x1024.size a
  h_S51x1024 : 0 < S51x1024.numel
  inb_S1024x1024_S1024x1024_0_0 : ∀ a, (![0, 0] : Fin 2 → Nat) a + S1024x1024.size a ≤ S1024x1024.size a
  h_S1024x1024 : 0 < S1024x1024.numel
  inb_S51x1_S51x1_0_0 : ∀ a, (![0, 0] : Fin 2 → Nat) a + S51x1.size a ≤ S51x1.size a
  h_S51x1 : 0 < S51x1.numel
  shapeCasts_S51x1_S51x1 : S51x1.ShapeCasts S51x1
  broadcasts_S51x1_S51x1024 : S51x1.Broadcasts S51x1024
  reduces_S51x1024_S1024 : S51x1024.Reduces [0] S1024
  shapeCasts_S1024_S1x1024 : S1024.ShapeCasts S1x1024
  broadcasts_S1x1024_S51x1024 : S1x1024.Broadcasts S51x1024
  inb_S51x2048_S51x1024_0_0 : ∀ a, (![0, 0] : Fin 2 → Nat) a + S51x1024.size a ≤ S51x2048.size a
  shapeCasts_S1x1024_S1024 : S1x1024.ShapeCasts S1024
  inb_S1x1x2048_S1x1x1024_0_0_0 : ∀ a, (![0, 0, 0] : Fin 3 → Nat) a + S1x1x1024.size a ≤ S1x1x2048.size a
  h_S1x1x1024 : 0 < S1x1x1024.numel
  shapeCasts_S1x1x1024_S1024 : S1x1x1024.ShapeCasts S1024
  shapeCasts_S1024_S1x1x1024 : S1024.ShapeCasts S1x1x1024
  inb_S51x2048_S51x1024_0_1024 : ∀ a, (![0, 1024] : Fin 2 → Nat) a + S51x1024.size a ≤ S51x2048.size a
  inb_S1x1x2048_S1x1x1024_0_0_1024 : ∀ a, (![0, 0, 1024] : Fin 3 → Nat) a + S1x1x1024.size a ≤ S1x1x2048.size a
  dot_S51x1024_S1024x1024_S51x1024_1_1_0_0_n_n_wf : DotDims.WF S51x1024 S1024x1024 S51x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51x1024.size a ≤ S51x1024.size a
  hwx0_2 : ∀ i : grid0.Coords, EltTy.bits .f32 = 32 ∨ (Rect.block (s := S51x1024) S51x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S51x1.size a ≤ S51x1.size a
  hwx0_3 : ∀ i : grid0.Coords, EltTy.bits .f32 = 32 ∨ (Rect.block (s := S51x1) S51x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S51x1.size a ≤ S51x1.size a
  hwx0_4 : ∀ i : grid0.Coords, EltTy.bits .f32 = 32 ∨ (Rect.block (s := S51x1) S51x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S51x2048.size a ≤ S51x16384.size a
  hwx0_5 : ∀ i : grid0.Coords, EltTy.bits .f32 = 32 ∨ (Rect.block (s := S51x16384) S51x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S8x1x2048.size a
  hwx0_6 : ∀ i : grid0.Coords, EltTy.bits .f32 = 32 ∨ (Rect.block (s := S8x1x2048) S1x1x2048.size (cc0_transform_6 i) (hinb0_6 i)).WholeWords (EltTy.packing .f32)

variable [Facts₀]

def dot_S51x1024_S1024x1024_S51x1024_1_1_0_0_n_n : DotDims S51x1024 S1024x1024 S51x1024 where
  lhsContracting := [1]
  rhsContracting := [1]
  lhsNonContracting := [0]
  rhsNonContracting := [0]
  lhsBatch := []
  rhsBatch := []
  wf := dot_S51x1024_S1024x1024_S51x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S51x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S51x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S51x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_0) S51x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2_1) S1x1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S51x1024 : Shape := ⟨2, ![51, 1024]⟩
abbrev S51 : Shape := ⟨1, ![51]⟩
abbrev S1024x51 : Shape := ⟨2, ![1024, 51]⟩
abbrev S16384x51 : Shape := ⟨2, ![16384, 51]⟩
abbrev S1x51 : Shape := ⟨2, ![1, 51]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S51x1024, .f32⟩
  | .hbm, ⟨2, _⟩ => ⟨S51, .f32⟩
  | .hbm, ⟨3, _⟩ => ⟨S51, .f32⟩
  | .hbm, ⟨4, _⟩ => ⟨S1024x51, .f32⟩
  | .hbm, ⟨5, _⟩ => ⟨S16384x51, .f32⟩
  | .hbm, ⟨6, _⟩ => ⟨S1x51, .f32⟩
  | .hbm, ⟨7, _⟩ => ⟨S16384x51, .f32⟩
  | .hbm, ⟨8, _⟩ => ⟨S16384x51, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x51, .f32⟩
  | .hbm, ⟨16, _⟩ => ⟨S16384x51, .f32⟩
  | .hbm, ⟨17, _⟩ => ⟨S16384x51, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x51, .f32⟩
  | .hbm, ⟨22, _⟩ => ⟨S16384x51, .f32⟩
  | .hbm, ⟨23, _⟩ => ⟨S1x51, .f32⟩
  | .hbm, ⟨24, _⟩ => ⟨S16384x51, .f32⟩
  | .hbm, ⟨25, _⟩ => ⟨S16384x51, .f32⟩
  | .hbm, ⟨26, _⟩ => ⟨S_, .f32⟩
  | .hbm, ⟨27, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S51x1024_S1024x51_1_0 : S51x1024.Transposes [1, 0] S1024x51
  bcast_S51_S1x51_1 : S51.BroadcastsInDim S1x51 (![1] : Fin 1 → Fin S1x51.rank)
  bcast_S1x51_S16384x51_0_1 : S1x51.BroadcastsInDim S16384x51 (![0, 1] : Fin 2 → Fin S16384x51.rank)
  reducesTo_S16384x51_S16384_d1 : S16384x51.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x51_0_1 : S16384x1.BroadcastsInDim S16384x51 (![0, 1] : Fin 2 → Fin S16384x51.rank)
  dot_S16384x1024_S1024x51_S16384x51_1_0_0_1_n_n_wf : DotDims.WF S16384x1024 S1024x51 S16384x51 [1] [0] [0] [1] [] []

variable [Facts₀]

def dot_S16384x1024_S1024x51_S16384x51_1_0_0_1_n_n : DotDims S16384x1024 S1024x51 S16384x51 where
  lhsContracting := [1]
  rhsContracting := [0]
  lhsNonContracting := [0]
  rhsNonContracting := [1]
  lhsBatch := []
  rhsBatch := []
  wf := dot_S16384x1024_S1024x51_S16384x51_1_0_0_1_n_n_wf

class Facts : Prop extends Facts₀ where

variable [Facts]
-- ==== Proof.BitsBody.lean ====
/-
  The kernel body at one grid point.

  A grid point i handles the 2048 rows 2048·i … 2048·i+2047 of x in two halves: window 0 stages rows
  2048·i … 2048·i+1023 (block 2i of x) and window 1 rows 2048·i+1024 … 2048·i+2047 (block 2i+1 of the SAME array).
  For each half h the body forms, transposed (classes down the 51 rows, batch rows along the 1024 columns),
      lt = W · x_hᵀ + b,   e = exp(lt − max over classes),   s = Σ over classes e,   r = 1 / s,
  and stores e · r into columns 1024·h … 1024·h+1023 of the [51, 2048] output block and (Σ over classes e · bins) · r
  into positions 1024·h … 1024·h+1023 of the [1, 1, 2048] output block. The two stores of each output tile its
  block, so after the body each output block is the canonical reading of two pieces, each a pure function of the
  five input blocks; the unused loads of the output buffers before each store read whatever was there.
-/
import proofs.«170842_g26946624815573_cont_9to1_241_20_alg».proof.Proof.Gen.Kernel.Launch
import proofs.«170842_g26946624815573_cont_9to1_241_20_alg».proof.Proof.Gen.Kernel.Skeleton
import proofs.«170842_g26946624815573_cont_9to1_241_20_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch; -/
abbrev W0 : Dev nD → Valuation τ sig (Elt F) := fun c b => (s₀ m ρ).mem ((c : Dev nD), b)
/-- and once b and bins have been recast as [51, 1] columns: what the region is entered from. -/
abbrev W1 : Dev nD → Valuation τ sig (Elt F) := fun c => StableHlo.after hostOps0 (W0 m ρ c)
/-- The same read at the TensorCore's references. -/
abbrev V (c : Dev nD) (b : Ref sig .tc) : Buf (Elt F) ((c : Thread nD τ).loc b) := W1 m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Input window 0's current staging buffer holds its block at every point, fetched there or not: a block that is
    not refetched has not moved, and the body leaves every input block as it found it. -/
theorem before_in0 {c : Dev nD} (dat : Dat τ (Elt F) Unit ℕ (UR sig nD τ) ℕ cfg0 c) (hA : dat.A 0 = V m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: a block that is
    not refetched has not moved, and the body leaves every input block as it found it. -/
theorem before_in1 {c : Dev nD} (dat : Dat τ (Elt F) Unit ℕ (UR sig nD τ) ℕ cfg0 c) (hA : dat.A 1 = V m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: a block that is
    not refetched has not moved, and the body leaves every input block as it found it. -/
theorem before_in2 {c : Dev nD} (dat : Dat τ (Elt F) Unit ℕ (UR sig nD τ) ℕ cfg0 c) (hA : dat.A 2 = V m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: a block that is
    not refetched has not moved, and the body leaves every input block as it found it. -/
theorem before_in3 {c : Dev nD} (dat : Dat τ (Elt F) Unit ℕ (UR sig nD τ) ℕ cfg0 c) (hA : dat.A 3 = V m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: a block that is
    not refetched has not moved, and the body leaves every input block as it found it. -/
theorem before_in4 {c : Dev nD} (dat : Dat τ (Elt F) Unit ℕ (UR sig nD τ) ℕ cfg0 c) (hA : dat.A 4 = V m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S1024x1024 := Rect.unit (s := S1024x1024) ![0, 0] S1024x1024.size inb_S1024x1024_S1024x1024_0_0
abbrev rW : Rect S51x1024 := Rect.unit (s := S51x1024) ![0, 0] S51x1024.size inb_S51x1024_S51x1024_0_0
abbrev rC : Rect S51x1 := Rect.unit (s := S51x1) ![0, 0] S51x1.size inb_S51x1_S51x1_0_0
abbrev rP0 : Rect S51x2048 := Rect.unit (s := S51x2048) ![0, 0] S51x1024.size inb_S51x2048_S51x1024_0_0
abbrev rP1 : Rect S51x2048 := Rect.unit (s := S51x2048) ![0, 1024] S51x1024.size inb_S51x2048_S51x1024_0_1024
abbrev rV0 : Rect S1x1x2048 := Rect.unit (s := S1x1x2048) ![0, 0, 0] S1x1x1024.size inb_S1x1x2048_S1x1x1024_0_0_0
abbrev rV1 : Rect S1x1x2048 := Rect.unit (s := S1x1x2048) ![0, 0, 1024] S1x1x1024.size inb_S1x1x2048_S1x1x1024_0_0_1024

/-! ## What the body leaves in each output block -/

/-- The [51, 2048] block of normalised exponentials after the body: the second half's columns, then the first half's
    (the later store first). -/
def outP (x0 x1 : Vec F S1024x1024 .f32) (w : Vec F S51x1024 .f32) (b : Vec F S51x1 .f32) : Vec F S51x2048 .f32 :=
  View.canon [⟨rP1, k0_pay3 (k0_pay9 (View.ld w rW) (View.ld x1 rX)) (View.ld b rC)⟩,
    ⟨rP0, k0_pay7 (View.ld w rW) (View.ld x0 rX) (View.ld b rC)⟩]

/-- The [1, 1, 2048] block of expected values after the body, likewise. -/
def outV (x0 x1 : Vec F S1024x1024 .f32) (w : Vec F S51x1024 .f32) (b bins : Vec F S51x1 .f32) : Vec F S1x1x2048 .f32 :=
  View.canon [⟨rV1, k0_pay4 (k0_pay9 (View.ld w rW) (View.ld x1 rX)) (View.ld b rC) (View.ld bins rC)⟩,
    ⟨rV0, k0_pay8 (View.ld w rW) (View.ld x0 rX) (View.ld b rC) (View.ld bins rC)⟩]

/-- The two column halves tile the [51, 2048] block. -/
theorem coverP (p1 p0 : Vec F S51x1024 .f32) (y : S51x2048.Idx) :
    ∃ pc ∈ ([⟨rP1, p1⟩, ⟨rP0, p0⟩] : List (View.Piece (Elt F) S51x2048 .f32)), y ∈ pc.1.set :=
  View.cover_of_tiled [⟨rP1, p1⟩, ⟨rP0, p0⟩] S51x1024.size (by rfl) y

/-- The two halves tile the [1, 1, 2048] block. -/
theorem coverV (p1 p0 : Vec F S1x1x1024 .f32) (y : S1x1x2048.Idx) :
    ∃ pc ∈ ([⟨rV1, p1⟩, ⟨rV0, p0⟩] : List (View.Piece (Elt F) S1x1x2048 .f32)), y ∈ pc.1.set :=
  View.cover_of_tiled [⟨rV1, p1⟩, ⟨rV0, p0⟩] S1x1x1024.size (by rfl) y

/-! ## The body's triple -/

set_option maxHeartbeats 4000000 in
/-- On whole staging buffers, the five inputs' at their contents and the two outputs' at anything, the body runs to
    the continuation with the inputs as they were and the outputs at `outP` and `outV` of the inputs. -/
theorem sound_kernel (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S51x1024 .f32) (harg3 : arg3.IsWhole) (arg4 : Memref sig .tc .vmem S51x1 .f32) (harg4 : arg4.IsWhole)
    (arg5 : Memref sig .tc .vmem S51x1 .f32) (harg5 : arg5.IsWhole) (arg6 : Memref sig .tc .vmem S51x2048 .f32) (harg6 : arg6.IsWhole)
    (arg7 : Memref sig .tc .vmem S1x1x2048 .f32) (harg7 : arg7.IsWhole)
    (x0 x1 : Vec F S1024x1024 .f32) (x2 : Vec F S51x1024 .f32) (x3 x4 : Vec F S51x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outP x0 x1 x2 x3) ∗ owns (c : Thread nD τ) arg7 fullShare (outV x0 x1 x2 x3 x4)) -∗ K ⟨⟩))
      ⊢ wp frame (wpE (defs₀ (F := F)) Variants.none c none) E
          (cc0__head_kernel i arg1 harg1 arg2 harg2 arg3 harg3 arg4 harg4 arg5 harg5 arg6 harg6 arg7 harg7) K := by
  simp only [cc0__head_kernel_eq_skeleton]; unfold cc0__head_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _ _)
  iexists _; isplitr
  swap; · iexact H6
  ipureintro
  exact View.read_writes_eq_canon _ _ _ (coverV _ _)

end Cert.Kernel.Head

end
-- ==== Proof.BitsRun.lean ====
/-
  The run of the whole program: two recasts of b and bins as [51, 1] columns, the kernel region over its eight grid
  points, then the transpose of the [51, 16384] array of normalised exponentials and the recast of the [8, 1, 2048]
  array of expected values as [16384].

  The region hands the ONE array x to two windows (the even and the odd 1024-row blocks), so the region holds x
  twice: window 0 at the left half of the full share and window 1 at the right half. At the region's entry x's full
  points-to is dealt into the two halves; at its exit, x being an input that no write-back touches, both halves are
  at x's entry contents and are joined again. Every other array is held at the full share.
-/
import proofs.«170842_g26946624815573_cont_9to1_241_20_alg».proof.Proof.BitsBody
import Idealize.ShloMosaic.Lib.Pipeline.Regions

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at `outP` / `outV` of the input blocks; the invariant the scoped rest and the generator register,
    untouched; nothing owed; x at the two halves of the full share, every other input at the full share. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => outP (iblk m ρ c 0 t) (iblk m ρ c 1 t) (iblk m ρ c 2 t) (iblk m ρ c 3 t)
    | ⟨6, _⟩ => outV (iblk m ρ c 0 t) (iblk m ρ c 1 t) (iblk m ρ c 2 t) (iblk m ρ c 3 t) (iblk m ρ c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) :
    (dats m ρ 0 c).after 5 t = outP (iblk m ρ c 0 t) (iblk m ρ c 1 t) (iblk m ρ c 2 t) (iblk m ρ c 3 t) := by dsimp only [dats]
theorem after_6 (c : Dev nD) (t : Fin cfg0.N) :
    (dats m ρ 0 c).after 6 t = outV (iblk m ρ c 0 t) (iblk m ρ c 1 t) (iblk m ρ c 2 t) (iblk m ρ c 3 t) (iblk m ρ c 4 t) := by dsimp only [dats]

theorem before_0 (c : Dev nD) (t : Fin cfg0.N) (d) : (dats m ρ 0 c).before 0 t d = iblk m ρ c 0 t :=
  before_in0 m ρ (dats m ρ 0 c) (A_eq m ρ c 0) (after_0 m ρ c) t d
theorem before_1 (c : Dev nD) (t : Fin cfg0.N) (d) : (dats m ρ 0 c).before 1 t d = iblk m ρ c 1 t :=
  before_in1 m ρ (dats m ρ 0 c) (A_eq m ρ c 1) (after_1 m ρ c) t d
theorem before_2 (c : Dev nD) (t : Fin cfg0.N) (d) : (dats m ρ 0 c).before 2 t d = iblk m ρ c 2 t :=
  before_in2 m ρ (dats m ρ 0 c) (A_eq m ρ c 2) (after_2 m ρ c) t d
theorem before_3 (c : Dev nD) (t : Fin cfg0.N) (d) : (dats m ρ 0 c).before 3 t d = iblk m ρ c 3 t :=
  before_in3 m ρ (dats m ρ 0 c) (A_eq m ρ c 3) (after_3 m ρ c) t d
theorem before_4 (c : Dev nD) (t : Fin cfg0.N) (d) : (dats m ρ 0 c).before 4 t d = iblk m ρ c 4 t :=
  before_in4 m ρ (dats m ρ 0 c) (A_eq m ρ c 4) (after_4 m ρ c) t d

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

/-- The body at any point: the inputs' buffers hold their blocks, so the body's triple applies; the invariant and the
    core's `owes` pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m ρ c 0 t) (iblk m ρ c 1 t) (iblk m ρ c 2 t) (iblk m ρ c 3 t) (iblk m ρ c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

/-! ## The buffers after the region, and after the program -/

/-- After the region: the two result arrays at what the eight write-backs leave, every other buffer as entered. -/
def W2 (c : Dev nD) : Valuation τ sig (Elt F) :=
  Function.update (Function.update (W1 m ρ c) (Proc.devRef .tc main_call0_v2_0) ((dats m ρ 0 c).arrAt 5 cfg0.N))
    (Proc.devRef .tc main_call0_v2_1) ((dats m ρ 0 c).arrAt 6 cfg0.N)

/-- After the transpose and the recast: what the program ends with. -/
abbrev W3 (c : Dev nD) : Valuation τ sig (Elt F) := StableHlo.after hostOps1 (W2 m ρ c)

theorem W2_probs (c : Dev nD) : W2 m ρ c (Proc.devRef .tc main_call0_v2_0) = (dats m ρ 0 c).arrAt 5 cfg0.N := by
  unfold W2; rw [Function.update_of_ne (StableHlo.devRef_ne_of_ne (by decide)), Function.update_self]

theorem W2_vals (c : Dev nD) : W2 m ρ c (Proc.devRef .tc main_call0_v2_1) = (dats m ρ 0 c).arrAt 6 cfg0.N := by
  unfold W2; rw [Function.update_self]

theorem W2_of_ne (c : Dev nD) (b : Ref sig .tc) (h5 : b ≠ main_call0_v2_0) (h6 : b ≠ main_call0_v2_1) :
    W2 m ρ c (Proc.devRef .tc b) = W1 m ρ c (Proc.devRef .tc b) := by
  unfold W2; rw [Function.update_of_ne (StableHlo.devRef_ne_of_ne h6), Function.update_of_ne (StableHlo.devRef_ne_of_ne h5)]

/-! ## Dealing and joining the arrays -/

/-- A core's ten unscoped buffers, one by one. -/
theorem unscopedBufs_list (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop((((c : Thread nD τ).loc main_arg0) ↦{fullShare} Vc main_arg0) ∗ (((c : Thread nD τ).loc main_arg1) ↦{fullShare} Vc main_arg1)
          ∗ (((c : Thread nD τ).loc main_arg2) ↦{fullShare} Vc main_arg2) ∗ (((c : Thread nD τ).loc main_arg3) ↦{fullShare} Vc main_arg3)
          ∗ (((c : Thread nD τ).loc main_call0_v0) ↦{fullShare} Vc main_call0_v0) ∗ (((c : Thread nD τ).loc main_call0_v1) ↦{fullShare} Vc main_call0_v1)
          ∗ (((c : Thread nD τ).loc main_call0_v2_0) ↦{fullShare} Vc main_call0_v2_0) ∗ (((c : Thread nD τ).loc main_call0_v2_1) ↦{fullShare} Vc main_call0_v2_1)
          ∗ (((c : Thread nD τ).loc main_v0_0) ↦{fullShare} Vc main_v0_0) ∗ (((c : Thread nD τ).loc main_v0_1) ↦{fullShare} Vc main_v0_1)) := by
  unfold unscopedBufs
  exact bigSep_eq_bigSepL_of_eq [main_arg0, main_arg1, main_arg2, main_arg3, main_call0_v0, main_call0_v1, main_call0_v2_0, main_call0_v2_1, main_v0_0, main_v0_1]
    (by decide) (by decide) _

theorem share_0 (c : Dev nD) : (dats m ρ 0 c).share 0 = fullShare.left := by unfold Dat.share; rw [if_neg (by decide)]; dsimp only [dats]
theorem share_1 (c : Dev nD) : (dats m ρ 0 c).share 1 = fullShare.right := by unfold Dat.share; rw [if_neg (by decide)]; dsimp only [dats]
theorem share_2 (c : Dev nD) : (dats m ρ 0 c).share 2 = fullShare := by unfold Dat.share; rw [if_neg (by decide)]; dsimp only [dats]
theorem share_3 (c : Dev nD) : (dats m ρ 0 c).share 3 = fullShare := by unfold Dat.share; rw [if_neg (by decide)]; dsimp only [dats]
theorem share_4 (c : Dev nD) : (dats m ρ 0 c).share 4 = fullShare := by unfold Dat.share; rw [if_neg (by decide)]; dsimp only [dats]
theorem share_5 (c : Dev nD) : (dats m ρ 0 c).share 5 = fullShare := by unfold Dat.share; rw [if_pos (by decide)]
theorem share_6 (c : Dev nD) : (dats m ρ 0 c).share 6 = fullShare := by unfold Dat.share; rw [if_pos (by decide)]

/-- The pipeline's seven arrays, one by one: x twice, at the two halves of the full share. -/
theorem arrays_list (c : Dev nD) (Fn : (w : Fin cfg0.W) → Buf (Elt F) ((cfg0.win w).arr.view.loc (c : Thread nD τ))) :
    ((dats m ρ 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_arg1) ↦{fullShare} Fn 2) ∗ (((c : Thread nD τ).loc main_call0_v0) ↦{fullShare} Fn 3)
          ∗ (((c : Thread nD τ).loc main_call0_v1) ↦{fullShare} Fn 4) ∗ (((c : Thread nD τ).loc main_call0_v2_0) ↦{fullShare} Fn 5)
          ∗ (((c : Thread nD τ).loc main_call0_v2_1) ↦{fullShare} Fn 6)) := by
  unfold Dat.arrays
  rw [bigSep_W0, share_0, share_1, share_2, share_3, share_4, share_5, share_6,
    (arr_whole0 0).set_eq_univ, (arr_whole0 2).set_eq_univ, (arr_whole0 3).set_eq_univ,
    (arr_whole0 4).set_eq_univ, (arr_whole0 5).set_eq_univ, (arr_whole0 6).set_eq_univ]

/-- ENTRY: the ten buffers at the entry contents are the pipeline's arrays at their entry contents — x's full
    points-to dealt into its two halves — and the four buffers no window stages. -/
theorem deal (c : Dev nD) :
    (unscopedBufs (Ix := Unit) (Name := ℕ) (U := UR sig nD τ) (Lvl := ℕ) c (V m ρ c) : sProp 𝕄)
      ⊢ iprop((dats m ρ 0 c).arrays ((dats m ρ 0 c).arrAt · 0)
          ∗ Pipeline.unscopedRest (Ix := Unit) (Name := ℕ) (U := UR sig nD τ) (Lvl := ℕ) spec0 c (V m ρ c)) := by
  rw [unscopedBufs_list, arrays_list, unscopedRest0_eq]
  iintro ⟨H0, H1, H2, H3, H4, H5, H6, H7, H8, H9⟩
  ihave Hx := (pointsTo_share (I := Finset.univ) (PosShare.mem_left_op_right fullShare)).1 $$ H0
  icases Hx with ⟨Hl, Hr⟩
  isplitl [Hl Hr H1 H4 H5 H6 H7]
  · isplitl [Hl]; · iexact Hl
    isplitl [Hr]; · iexact Hr
    isplitl [H1]; · iexact H1
    isplitl [H4]; · iexact H4
    isplitl [H5]; · iexact H5
    isplitl [H6]; · iexact H6
    iexact H7
  isplitl [H2]; · iexact H2
  isplitl [H3]; · iexact H3
  isplitl [H8]; · iexact H8
  iexact H9

/-- An input array is as entered after every write-back. -/
theorem arrAt_x0 (c : Dev nD) : (dats m ρ 0 c).arrAt 0 cfg0.N = V m ρ c main_arg0 := ((dats m ρ 0 c).arrAt_in 0 rfl _).trans (A_eq m ρ c 0)
theorem arrAt_x1 (c : Dev nD) : (dats m ρ 0 c).arrAt 1 cfg0.N = V m ρ c main_arg0 := ((dats m ρ 0 c).arrAt_in 1 rfl _).trans (A_eq m ρ c 1)
theorem arrAt_w (c : Dev nD) : (dats m ρ 0 c).arrAt 2 cfg0.N = V m ρ c main_arg1 := ((dats m ρ 0 c).arrAt_in 2 rfl _).trans (A_eq m ρ c 2)
theorem arrAt_b (c : Dev nD) : (dats m ρ 0 c).arrAt 3 cfg0.N = V m ρ c main_call0_v0 := ((dats m ρ 0 c).arrAt_in 3 rfl _).trans (A_eq m ρ c 3)
theorem arrAt_bins (c : Dev nD) : (dats m ρ 0 c).arrAt 4 cfg0.N = V m ρ c main_call0_v1 := ((dats m ρ 0 c).arrAt_in 4 rfl _).trans (A_eq m ρ c 4)

/-- EXIT: the pipeline's arrays at their final contents — both halves of x at x's entry contents, joined — and the
    four bypassing buffers are the ten buffers at the contents after the region. -/
theorem join (c : Dev nD) :
    iprop((dats m ρ 0 c).arrays ((dats m ρ 0 c).arrAt · cfg0.N)
        ∗ Pipeline.unscopedRest (Ix := Unit) (Name := ℕ) (U := UR sig nD τ) (Lvl := ℕ) spec0 c (V m ρ c))
      ⊢ (unscopedBufs (Ix := Unit) (Name := ℕ) (U := UR sig nD τ) (Lvl := ℕ) c (fun b => W2 m ρ c b) : sProp 𝕄) := by
  rw [unscopedBufs_list, arrays_list, unscopedRest0_eq]
  rw [W2_of_ne m ρ c main_arg0 (by decide) (by decide), W2_of_ne m ρ c main_arg1 (by decide) (by decide),
    W2_of_ne m ρ c main_arg2 (by decide) (by decide), W2_of_ne m ρ c main_arg3 (by decide) (by decide),
    W2_of_ne m ρ c main_call0_v0 (by decide) (by decide), W2_of_ne m ρ c main_call0_v1 (by decide) (by decide),
    W2_of_ne m ρ c main_v0_0 (by decide) (by decide), W2_of_ne m ρ c main_v0_1 (by decide) (by decide),
    W2_probs, W2_vals, arrAt_x0, arrAt_x1, arrAt_w, arrAt_b, arrAt_bins]
  iintro ⟨⟨Hl, Hr, H1, H4, H5, H6, H7⟩, H2, H3, H8, H9⟩
  ihave H0 := (pointsTo_share (I := Finset.univ) (PosShare.mem_left_op_right fullShare)).2 $$ [Hl Hr]
  · isplitl [Hl] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-- A stretch of host operations over the ten unscoped buffers, from the contents `W`. -/
abbrev hseg (ops : List (HloOp τ sig (Elt F))) (hsub : ops.Forall fun op => op.bufs ⊆ StableHlo.tcRefs τ sig)
    (hfresh : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W R

/-- The two recasts before the region. -/
def seg0 : Pipeline.HostSeg (Name := ℕ) (U := UR sig nD τ) (pcfgs (F := F)) defs₀ 𝒱₀ L lv :=
  hseg hostOps0 hostOps0_sub (by intro _ h; (repeat (cases h with | head => rfl | tail _ h => ?_)); exact nomatch h) (W0 m ρ)

/-- The transpose and the recast after it. -/
def seg1 : Pipeline.HostSeg (Name := ℕ) (U := UR sig nD τ) (pcfgs (F := F)) defs₀ 𝒱₀ L lv :=
  hseg hostOps1 hostOps1_sub (by intro _ h; (repeat (cases h with | head => rfl | tail _ h => ?_)); exact nomatch h) (W2 m ρ)

set_option backward.isDefEq.respectTransparency.types false in
/-- The region, entered from the ten buffers at `W1` and left at `W2`: its arrays dealt out of the buffers (`deal`)
    and joined back (`join`), the generator register into the invariant and out, nothing owed, no semaphore of the
    kernel's own. -/
def reg0 : Pipeline.RegionSeg (pcfgs (F := F)) adm (dats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    rw [Pipeline.ownSems0_none]
    have hsplit := deal m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (dats m ρ) () defs₀ 𝒱₀ L lv) :=
  [.host (seg0 m ρ), .region (reg0 m ρ), .host (seg1 m ρ)]

/-- The last thread state without the `owes`: every unscoped buffer at the final contents, the generator register. -/
abbrev Tₙ (c : Dev nD) : sProp 𝕄 := iprop(StableHlo.held (c : Thread nD τ) (Pipeline.ucRefs τ sig) (W3 m ρ c) ∗ ∃ r, prngReg c r)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- From any memory with zero counters every weakly fair execution of the program terminates, nothing faulting,
    and every unscoped buffer ends at `W3`: the launch contents run through the two recasts, the region's
    write-backs, the transpose and the last recast. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (dats m ρ) () cellOf_inj emb₁ defs₀ 𝒱₀ L lv m ρ main (segs m ρ)
    (fun c Q => by rw [main_segs adm (dats m ρ) () 𝒱₀ L lv (seg0 m ρ) (seg1 m ρ) (reg0 m ρ) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Head

end
-- ==== Proof.BitsReads.lean ====
/-
  What the program ends with, buffer by buffer: the four argument arrays as launched (no operation writes them), the
  first result the transpose of the region's [51, 16384] array, the second the region's [8, 1, 2048] array recast as
  [16384]; and what the region is entered from: x and W as launched, b and β recast as [51, 1] columns.
-/
import proofs.«170842_g26946624815573_cont_9to1_241_20_alg».proof.Proof.BitsRun

set_option maxRecDepth 65536

noncomputable section

namespace Cert.Kernel.Head

open Cert.Kernel Cert.Kernel.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-! ## The region's entry -/

theorem V_x (c : Dev nD) : V m ρ c main_arg0 = m ((c.tc : Thread nD τ).loc main_arg0) := by
  show StableHlo.after hostOps0 (W0 m ρ c) (Proc.devRef .tc main_arg0) = _
  after_results <;> rfl
theorem V_w (c : Dev nD) : V m ρ c main_arg1 = m ((c.tc : Thread nD τ).loc main_arg1) := by
  show StableHlo.after hostOps0 (W0 m ρ c) (Proc.devRef .tc main_arg1) = _
  after_results <;> rfl
theorem V_b (c : Dev nD) :
    V m ρ c main_call0_v0 = shapeCast S51x1 (m ((c.tc : Thread nD τ).loc main_arg2)) shapeCasts_S51_S51x1 := by
  show StableHlo.after hostOps0 (W0 m ρ c) (Proc.devRef .tc main_call0_v0) = _
  after_results <;> rfl
theorem V_bins (c : Dev nD) :
    V m ρ c main_call0_v1 = shapeCast S51x1 (m ((c.tc : Thread nD τ).loc main_arg3)) shapeCasts_S51_S51x1 := by
  show StableHlo.after hostOps0 (W0 m ρ c) (Proc.devRef .tc main_call0_v1) = _
  after_results <;> rfl

/-! ## The program's end -/

/-- Argument 0 ends as launched. -/
theorem W3_arg0 (c : Dev nD) : W3 m ρ c (Proc.devRef .tc main_arg0) = m ((c.tc : Thread nD τ).loc main_arg0) := by
  have h : W3 m ρ c (Proc.devRef .tc main_arg0) = W2 m ρ c (Proc.devRef .tc main_arg0) := by
    show StableHlo.after hostOps1 (W2 m ρ c) (Proc.devRef .tc main_arg0) = _
    after_results <;> rfl
  rw [h, W2_of_ne m ρ c main_arg0 (by decide) (by decide)]
  show StableHlo.after hostOps0 (W0 m ρ c) (Proc.devRef .tc main_arg0) = _
  after_results <;> rfl

/-- Argument 1 ends as launched. -/
theorem W3_arg1 (c : Dev nD) : W3 m ρ c (Proc.devRef .tc main_arg1) = m ((c.tc : Thread nD τ).loc main_arg1) := by
  have h : W3 m ρ c (Proc.devRef .tc main_arg1) = W2 m ρ c (Proc.devRef .tc main_arg1) := by
    show StableHlo.after hostOps1 (W2 m ρ c) (Proc.devRef .tc main_arg1) = _
    after_results <;> rfl
  rw [h, W2_of_ne m ρ c main_arg1 (by decide) (by decide)]
  show StableHlo.after hostOps0 (W0 m ρ c) (Proc.devRef .tc main_arg1) = _
  after_results <;> rfl

/-- Argument 2 ends as launched. -/
theorem W3_arg2 (c : Dev nD) : W3 m ρ c (Proc.devRef .tc main_arg2) = m ((c.tc : Thread nD τ).loc main_arg2) := by
  have h : W3 m ρ c (Proc.devRef .tc main_arg2) = W2 m ρ c (Proc.devRef .tc main_arg2) := by
    show StableHlo.after hostOps1 (W2 m ρ c) (Proc.devRef .tc main_arg2) = _
    after_results <;> rfl
  rw [h, W2_of_ne m ρ c main_arg2 (by decide) (by decide)]
  show StableHlo.after hostOps0 (W0 m ρ c) (Proc.devRef .tc main_arg2) = _
  after_results <;> rfl

/-- Argument 3 ends as launched. -/
theorem W3_arg3 (c : Dev nD) : W3 m ρ c (Proc.devRef .tc main_arg3) = m ((c.tc : Thread nD τ).loc main_arg3) := by
  have h : W3 m ρ c (Proc.devRef .tc main_arg3) = W2 m ρ c (Proc.devRef .tc main_arg3) := by
    show StableHlo.after hostOps1 (W2 m ρ c) (Proc.devRef .tc main_arg3) = _
    after_results <;> rfl
  rw [h, W2_of_ne m ρ c main_arg3 (by decide) (by decide)]
  show StableHlo.after hostOps0 (W0 m ρ c) (Proc.devRef .tc main_arg3) = _
  after_results <;> rfl

/-- The first result: the region's [51, 16384] array, transposed. -/
theorem W3_probs (c : Dev nD) :
    W3 m ρ c (Proc.devRef .tc main_v0_0)
      = transpose S16384x51 [1, 0] (W2 m ρ c (Proc.devRef .tc main_call0_v2_0)) transposes_S51x16384_S16384x51_1_0 := by
  show StableHlo.after hostOps1 (W2 m ρ c) (Proc.devRef .tc main_v0_0) = _
  after_results <;> rfl

/-- The second result: the region's [8, 1, 2048] array, recast as [16384]. -/
theorem W3_vals (c : Dev nD) :
    W3 m ρ c (Proc.devRef .tc main_v0_1)
      = shapeCast S16384 (W2 m ρ c (Proc.devRef .tc main_call0_v2_1)) shapeCasts_S8x1x2048_S16384 := by
  show StableHlo.after hostOps1 (W2 m ρ c) (Proc.devRef .tc main_v0_1) = _
  after_results <;> rfl

end Cert.Kernel.Head

end
-- ==== Proof.IdealBody.lean ====
/-
  The kernel body at one grid point.

  A grid point i handles the 2048 rows 2048·i … 2048·i+2047 of x in two halves: window 0 stages rows
  2048·i … 2048·i+1023 (block 2i of x) and window 1 rows 2048·i+1024 … 2048·i+2047 (block 2i+1 of the SAME array).
  For each half h the body forms, transposed (classes down the 51 rows, batch rows along the 1024 columns),
      lt = W · x_hᵀ + b,   e = exp(lt − max over classes),   s = Σ over classes e,   r = 1 / s,
  and stores e · r into columns 1024·h … 1024·h+1023 of the [51, 2048] output block and (Σ over classes e · bins) · r
  into positions 1024·h … 1024·h+1023 of the [1, 1, 2048] output block. The two stores of each output tile its
  block, so after the body each output block is the canonical reading of two pieces, each a pure function of the
  five input blocks; the unused loads of the output buffers before each store read whatever was there.
-/
import proofs.«170842_g26946624815573_cont_9to1_241_20_alg».proof.Proof.Gen.KernelIdeal.Launch
import proofs.«170842_g26946624815573_cont_9to1_241_20_alg».proof.Proof.Gen.KernelIdeal.Skeleton
import proofs.«170842_g26946624815573_cont_9to1_241_20_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch; -/
abbrev W0 : Dev nD → Valuation τ sig (Elt F) := fun c b => (s₀ m ρ).mem ((c : Dev nD), b)
/-- and once b and bins have been recast as [51, 1] columns: what the region is entered from. -/
abbrev W1 : Dev nD → Valuation τ sig (Elt F) := fun c => StableHlo.after hostOps0 (W0 m ρ c)
/-- The same read at the TensorCore's references. -/
abbrev V (c : Dev nD) (b : Ref sig .tc) : Buf (Elt F) ((c : Thread nD τ).loc b) := W1 m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Input window 0's current staging buffer holds its block at every point, fetched there or not: a block that is
    not refetched has not moved, and the body leaves every input block as it found it. -/
theorem before_in0 {c : Dev nD} (dat : Dat τ (Elt F) Unit ℕ (UR sig nD τ) ℕ cfg0 c) (hA : dat.A 0 = V m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: a block that is
    not refetched has not moved, and the body leaves every input block as it found it. -/
theorem before_in1 {c : Dev nD} (dat : Dat τ (Elt F) Unit ℕ (UR sig nD τ) ℕ cfg0 c) (hA : dat.A 1 = V m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: a block that is
    not refetched has not moved, and the body leaves every input block as it found it. -/
theorem before_in2 {c : Dev nD} (dat : Dat τ (Elt F) Unit ℕ (UR sig nD τ) ℕ cfg0 c) (hA : dat.A 2 = V m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: a block that is
    not refetched has not moved, and the body leaves every input block as it found it. -/
theorem before_in3 {c : Dev nD} (dat : Dat τ (Elt F) Unit ℕ (UR sig nD τ) ℕ cfg0 c) (hA : dat.A 3 = V m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: a block that is
    not refetched has not moved, and the body leaves every input block as it found it. -/
theorem before_in4 {c : Dev nD} (dat : Dat τ (Elt F) Unit ℕ (UR sig nD τ) ℕ cfg0 c) (hA : dat.A 4 = V m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S1024x1024 := Rect.unit (s := S1024x1024) ![0, 0] S1024x1024.size inb_S1024x1024_S1024x1024_0_0
abbrev rW : Rect S51x1024 := Rect.unit (s := S51x1024) ![0, 0] S51x1024.size inb_S51x1024_S51x1024_0_0
abbrev rC : Rect S51x1 := Rect.unit (s := S51x1) ![0, 0] S51x1.size inb_S51x1_S51x1_0_0
abbrev rP0 : Rect S51x2048 := Rect.unit (s := S51x2048) ![0, 0] S51x1024.size inb_S51x2048_S51x1024_0_0
abbrev rP1 : Rect S51x2048 := Rect.unit (s := S51x2048) ![0, 1024] S51x1024.size inb_S51x2048_S51x1024_0_1024
abbrev rV0 : Rect S1x1x2048 := Rect.unit (s := S1x1x2048) ![0, 0, 0] S1x1x1024.size inb_S1x1x2048_S1x1x1024_0_0_0
abbrev rV1 : Rect S1x1x2048 := Rect.unit (s := S1x1x2048) ![0, 0, 1024] S1x1x1024.size inb_S1x1x2048_S1x1x1024_0_0_1024

/-! ## What the body leaves in each output block -/

/-- The [51, 2048] block of normalised exponentials after the body: the second half's columns, then the first half's
    (the later store first). -/
def outP (x0 x1 : Vec F S1024x1024 .f32) (w : Vec F S51x1024 .f32) (b : Vec F S51x1 .f32) : Vec F S51x2048 .f32 :=
  View.canon [⟨rP1, k0_pay3 (k0_pay9 (View.ld w rW) (View.ld x1 rX)) (View.ld b rC)⟩,
    ⟨rP0, k0_pay7 (View.ld w rW) (View.ld x0 rX) (View.ld b rC)⟩]

/-- The [1, 1, 2048] block of expected values after the body, likewise. -/
def outV (x0 x1 : Vec F S1024x1024 .f32) (w : Vec F S51x1024 .f32) (b bins : Vec F S51x1 .f32) : Vec F S1x1x2048 .f32 :=
  View.canon [⟨rV1, k0_pay4 (k0_pay9 (View.ld w rW) (View.ld x1 rX)) (View.ld b rC) (View.ld bins rC)⟩,
    ⟨rV0, k0_pay8 (View.ld w rW) (View.ld x0 rX) (View.ld b rC) (View.ld bins rC)⟩]

/-- The two column halves tile the [51, 2048] block. -/
theorem coverP (p1 p0 : Vec F S51x1024 .f32) (y : S51x2048.Idx) :
    ∃ pc ∈ ([⟨rP1, p1⟩, ⟨rP0, p0⟩] : List (View.Piece (Elt F) S51x2048 .f32)), y ∈ pc.1.set :=
  View.cover_of_tiled [⟨rP1, p1⟩, ⟨rP0, p0⟩] S51x1024.size (by rfl) y

/-- The two halves tile the [1, 1, 2048] block. -/
theorem coverV (p1 p0 : Vec F S1x1x1024 .f32) (y : S1x1x2048.Idx) :
    ∃ pc ∈ ([⟨rV1, p1⟩, ⟨rV0, p0⟩] : List (View.Piece (Elt F) S1x1x2048 .f32)), y ∈ pc.1.set :=
  View.cover_of_tiled [⟨rV1, p1⟩, ⟨rV0, p0⟩] S1x1x1024.size (by rfl) y

/-! ## The body's triple -/

set_option maxHeartbeats 4000000 in
/-- On whole staging buffers, the five inputs' at their contents and the two outputs' at anything, the body runs to
    the continuation with the inputs as they were and the outputs at `outP` and `outV` of the inputs. -/
theorem sound_kernel (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S51x1024 .f32) (harg3 : arg3.IsWhole) (arg4 : Memref sig .tc .vmem S51x1 .f32) (harg4 : arg4.IsWhole)
    (arg5 : Memref sig .tc .vmem S51x1 .f32) (harg5 : arg5.IsWhole) (arg6 : Memref sig .tc .vmem S51x2048 .f32) (harg6 : arg6.IsWhole)
    (arg7 : Memref sig .tc .vmem S1x1x2048 .f32) (harg7 : arg7.IsWhole)
    (x0 x1 : Vec F S1024x1024 .f32) (x2 : Vec F S51x1024 .f32) (x3 x4 : Vec F S51x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outP x0 x1 x2 x3) ∗ owns (c : Thread nD τ) arg7 fullShare (outV x0 x1 x2 x3 x4)) -∗ K ⟨⟩))
      ⊢ wp frame (wpE (defs₀ (F := F)) Variants.none c none) E
          (cc0__head_kernel i arg1 harg1 arg2 harg2 arg3 harg3 arg4 harg4 arg5 harg5 arg6 harg6 arg7 harg7) K := by
  simp only [cc0__head_kernel_eq_skeleton]; unfold cc0__head_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _ _)
  iexists _; isplitr
  swap; · iexact H6
  ipureintro
  exact View.read_writes_eq_canon _ _ _ (coverV _ _)

end Cert.KernelIdeal.Head

end
-- ==== Proof.IdealRun.lean ====
/-
  The run of the whole program: two recasts of b and bins as [51, 1] columns, the kernel region over its eight grid
  points, then the transpose of the [51, 16384] array of normalised exponentials and the recast of the [8, 1, 2048]
  array of expected values as [16384].

  The region hands the ONE array x to two windows (the even and the odd 1024-row blocks), so the region holds x
  twice: window 0 at the left half of the full share and window 1 at the right half. At the region's entry x's full
  points-to is dealt into the two halves; at its exit, x being an input that no write-back touches, both halves are
  at x's entry contents and are joined again. Every other array is held at the full share.
-/
import proofs.«170842_g26946624815573_cont_9to1_241_20_alg».proof.Proof.IdealBody
import Idealize.ShloMosaic.Lib.Pipeline.Regions

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at `outP` / `outV` of the input blocks; the invariant the scoped rest and the generator register,
    untouched; nothing owed; x at the two halves of the full share, every other input at the full share. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => outP (iblk m ρ c 0 t) (iblk m ρ c 1 t) (iblk m ρ c 2 t) (iblk m ρ c 3 t)
    | ⟨6, _⟩ => outV (iblk m ρ c 0 t) (iblk m ρ c 1 t) (iblk m ρ c 2 t) (iblk m ρ c 3 t) (iblk m ρ c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) :
    (dats m ρ 0 c).after 5 t = outP (iblk m ρ c 0 t) (iblk m ρ c 1 t) (iblk m ρ c 2 t) (iblk m ρ c 3 t) := by dsimp only [dats]
theorem after_6 (c : Dev nD) (t : Fin cfg0.N) :
    (dats m ρ 0 c).after 6 t = outV (iblk m ρ c 0 t) (iblk m ρ c 1 t) (iblk m ρ c 2 t) (iblk m ρ c 3 t) (iblk m ρ c 4 t) := by dsimp only [dats]

theorem before_0 (c : Dev nD) (t : Fin cfg0.N) (d) : (dats m ρ 0 c).before 0 t d = iblk m ρ c 0 t :=
  before_in0 m ρ (dats m ρ 0 c) (A_eq m ρ c 0) (after_0 m ρ c) t d
theorem before_1 (c : Dev nD) (t : Fin cfg0.N) (d) : (dats m ρ 0 c).before 1 t d = iblk m ρ c 1 t :=
  before_in1 m ρ (dats m ρ 0 c) (A_eq m ρ c 1) (after_1 m ρ c) t d
theorem before_2 (c : Dev nD) (t : Fin cfg0.N) (d) : (dats m ρ 0 c).before 2 t d = iblk m ρ c 2 t :=
  before_in2 m ρ (dats m ρ 0 c) (A_eq m ρ c 2) (after_2 m ρ c) t d
theorem before_3 (c : Dev nD) (t : Fin cfg0.N) (d) : (dats m ρ 0 c).before 3 t d = iblk m ρ c 3 t :=
  before_in3 m ρ (dats m ρ 0 c) (A_eq m ρ c 3) (after_3 m ρ c) t d
theorem before_4 (c : Dev nD) (t : Fin cfg0.N) (d) : (dats m ρ 0 c).before 4 t d = iblk m ρ c 4 t :=
  before_in4 m ρ (dats m ρ 0 c) (A_eq m ρ c 4) (after_4 m ρ c) t d

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

/-- The body at any point: the inputs' buffers hold their blocks, so the body's triple applies; the invariant and the
    core's `owes` pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m ρ c 0 t) (iblk m ρ c 1 t) (iblk m ρ c 2 t) (iblk m ρ c 3 t) (iblk m ρ c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

/-! ## The buffers after the region, and after the program -/

/-- After the region: the two result arrays at what the eight write-backs leave, every other buffer as entered. -/
def W2 (c : Dev nD) : Valuation τ sig (Elt F) :=
  Function.update (Function.update (W1 m ρ c) (Proc.devRef .tc main_call0_v2_0) ((dats m ρ 0 c).arrAt 5 cfg0.N))
    (Proc.devRef .tc main_call0_v2_1) ((dats m ρ 0 c).arrAt 6 cfg0.N)

/-- After the transpose and the recast: what the program ends with. -/
abbrev W3 (c : Dev nD) : Valuation τ sig (Elt F) := StableHlo.after hostOps1 (W2 m ρ c)

theorem W2_probs (c : Dev nD) : W2 m ρ c (Proc.devRef .tc main_call0_v2_0) = (dats m ρ 0 c).arrAt 5 cfg0.N := by
  unfold W2; rw [Function.update_of_ne (StableHlo.devRef_ne_of_ne (by decide)), Function.update_self]

theorem W2_vals (c : Dev nD) : W2 m ρ c (Proc.devRef .tc main_call0_v2_1) = (dats m ρ 0 c).arrAt 6 cfg0.N := by
  unfold W2; rw [Function.update_self]

theorem W2_of_ne (c : Dev nD) (b : Ref sig .tc) (h5 : b ≠ main_call0_v2_0) (h6 : b ≠ main_call0_v2_1) :
    W2 m ρ c (Proc.devRef .tc b) = W1 m ρ c (Proc.devRef .tc b) := by
  unfold W2; rw [Function.update_of_ne (StableHlo.devRef_ne_of_ne h6), Function.update_of_ne (StableHlo.devRef_ne_of_ne h5)]

/-! ## Dealing and joining the arrays -/

/-- A core's ten unscoped buffers, one by one. -/
theorem unscopedBufs_list (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop((((c : Thread nD τ).loc main_arg0) ↦{fullShare} Vc main_arg0) ∗ (((c : Thread nD τ).loc main_arg1) ↦{fullShare} Vc main_arg1)
          ∗ (((c : Thread nD τ).loc main_arg2) ↦{fullShare} Vc main_arg2) ∗ (((c : Thread nD τ).loc main_arg3) ↦{fullShare} Vc main_arg3)
          ∗ (((c : Thread nD τ).loc main_call0_v0) ↦{fullShare} Vc main_call0_v0) ∗ (((c : Thread nD τ).loc main_call0_v1) ↦{fullShare} Vc main_call0_v1)
          ∗ (((c : Thread nD τ).loc main_call0_v2_0) ↦{fullShare} Vc main_call0_v2_0) ∗ (((c : Thread nD τ).loc main_call0_v2_1) ↦{fullShare} Vc main_call0_v2_1)
          ∗ (((c : Thread nD τ).loc main_v0_0) ↦{fullShare} Vc main_v0_0) ∗ (((c : Thread nD τ).loc main_v0_1) ↦{fullShare} Vc main_v0_1)) := by
  unfold unscopedBufs
  exact bigSep_eq_bigSepL_of_eq [main_arg0, main_arg1, main_arg2, main_arg3, main_call0_v0, main_call0_v1, main_call0_v2_0, main_call0_v2_1, main_v0_0, main_v0_1]
    (by decide) (by decide) _

theorem share_0 (c : Dev nD) : (dats m ρ 0 c).share 0 = fullShare.left := by unfold Dat.share; rw [if_neg (by decide)]; dsimp only [dats]
theorem share_1 (c : Dev nD) : (dats m ρ 0 c).share 1 = fullShare.right := by unfold Dat.share; rw [if_neg (by decide)]; dsimp only [dats]
theorem share_2 (c : Dev nD) : (dats m ρ 0 c).share 2 = fullShare := by unfold Dat.share; rw [if_neg (by decide)]; dsimp only [dats]
theorem share_3 (c : Dev nD) : (dats m ρ 0 c).share 3 = fullShare := by unfold Dat.share; rw [if_neg (by decide)]; dsimp only [dats]
theorem share_4 (c : Dev nD) : (dats m ρ 0 c).share 4 = fullShare := by unfold Dat.share; rw [if_neg (by decide)]; dsimp only [dats]
theorem share_5 (c : Dev nD) : (dats m ρ 0 c).share 5 = fullShare := by unfold Dat.share; rw [if_pos (by decide)]
theorem share_6 (c : Dev nD) : (dats m ρ 0 c).share 6 = fullShare := by unfold Dat.share; rw [if_pos (by decide)]

/-- The pipeline's seven arrays, one by one: x twice, at the two halves of the full share. -/
theorem arrays_list (c : Dev nD) (Fn : (w : Fin cfg0.W) → Buf (Elt F) ((cfg0.win w).arr.view.loc (c : Thread nD τ))) :
    ((dats m ρ 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_arg1) ↦{fullShare} Fn 2) ∗ (((c : Thread nD τ).loc main_call0_v0) ↦{fullShare} Fn 3)
          ∗ (((c : Thread nD τ).loc main_call0_v1) ↦{fullShare} Fn 4) ∗ (((c : Thread nD τ).loc main_call0_v2_0) ↦{fullShare} Fn 5)
          ∗ (((c : Thread nD τ).loc main_call0_v2_1) ↦{fullShare} Fn 6)) := by
  unfold Dat.arrays
  rw [bigSep_W0, share_0, share_1, share_2, share_3, share_4, share_5, share_6,
    (arr_whole0 0).set_eq_univ, (arr_whole0 2).set_eq_univ, (arr_whole0 3).set_eq_univ,
    (arr_whole0 4).set_eq_univ, (arr_whole0 5).set_eq_univ, (arr_whole0 6).set_eq_univ]

/-- ENTRY: the ten buffers at the entry contents are the pipeline's arrays at their entry contents — x's full
    points-to dealt into its two halves — and the four buffers no window stages. -/
theorem deal (c : Dev nD) :
    (unscopedBufs (Ix := Unit) (Name := ℕ) (U := UR sig nD τ) (Lvl := ℕ) c (V m ρ c) : sProp 𝕄)
      ⊢ iprop((dats m ρ 0 c).arrays ((dats m ρ 0 c).arrAt · 0)
          ∗ Pipeline.unscopedRest (Ix := Unit) (Name := ℕ) (U := UR sig nD τ) (Lvl := ℕ) spec0 c (V m ρ c)) := by
  rw [unscopedBufs_list, arrays_list, unscopedRest0_eq]
  iintro ⟨H0, H1, H2, H3, H4, H5, H6, H7, H8, H9⟩
  ihave Hx := (pointsTo_share (I := Finset.univ) (PosShare.mem_left_op_right fullShare)).1 $$ H0
  icases Hx with ⟨Hl, Hr⟩
  isplitl [Hl Hr H1 H4 H5 H6 H7]
  · isplitl [Hl]; · iexact Hl
    isplitl [Hr]; · iexact Hr
    isplitl [H1]; · iexact H1
    isplitl [H4]; · iexact H4
    isplitl [H5]; · iexact H5
    isplitl [H6]; · iexact H6
    iexact H7
  isplitl [H2]; · iexact H2
  isplitl [H3]; · iexact H3
  isplitl [H8]; · iexact H8
  iexact H9

/-- An input array is as entered after every write-back. -/
theorem arrAt_x0 (c : Dev nD) : (dats m ρ 0 c).arrAt 0 cfg0.N = V m ρ c main_arg0 := ((dats m ρ 0 c).arrAt_in 0 rfl _).trans (A_eq m ρ c 0)
theorem arrAt_x1 (c : Dev nD) : (dats m ρ 0 c).arrAt 1 cfg0.N = V m ρ c main_arg0 := ((dats m ρ 0 c).arrAt_in 1 rfl _).trans (A_eq m ρ c 1)
theorem arrAt_w (c : Dev nD) : (dats m ρ 0 c).arrAt 2 cfg0.N = V m ρ c main_arg1 := ((dats m ρ 0 c).arrAt_in 2 rfl _).trans (A_eq m ρ c 2)
theorem arrAt_b (c : Dev nD) : (dats m ρ 0 c).arrAt 3 cfg0.N = V m ρ c main_call0_v0 := ((dats m ρ 0 c).arrAt_in 3 rfl _).trans (A_eq m ρ c 3)
theorem arrAt_bins (c : Dev nD) : (dats m ρ 0 c).arrAt 4 cfg0.N = V m ρ c main_call0_v1 := ((dats m ρ 0 c).arrAt_in 4 rfl _).trans (A_eq m ρ c 4)

/-- EXIT: the pipeline's arrays at their final contents — both halves of x at x's entry contents, joined — and the
    four bypassing buffers are the ten buffers at the contents after the region. -/
theorem join (c : Dev nD) :
    iprop((dats m ρ 0 c).arrays ((dats m ρ 0 c).arrAt · cfg0.N)
        ∗ Pipeline.unscopedRest (Ix := Unit) (Name := ℕ) (U := UR sig nD τ) (Lvl := ℕ) spec0 c (V m ρ c))
      ⊢ (unscopedBufs (Ix := Unit) (Name := ℕ) (U := UR sig nD τ) (Lvl := ℕ) c (fun b => W2 m ρ c b) : sProp 𝕄) := by
  rw [unscopedBufs_list, arrays_list, unscopedRest0_eq]
  rw [W2_of_ne m ρ c main_arg0 (by decide) (by decide), W2_of_ne m ρ c main_arg1 (by decide) (by decide),
    W2_of_ne m ρ c main_arg2 (by decide) (by decide), W2_of_ne m ρ c main_arg3 (by decide) (by decide),
    W2_of_ne m ρ c main_call0_v0 (by decide) (by decide), W2_of_ne m ρ c main_call0_v1 (by decide) (by decide),
    W2_of_ne m ρ c main_v0_0 (by decide) (by decide), W2_of_ne m ρ c main_v0_1 (by decide) (by decide),
    W2_probs, W2_vals, arrAt_x0, arrAt_x1, arrAt_w, arrAt_b, arrAt_bins]
  iintro ⟨⟨Hl, Hr, H1, H4, H5, H6, H7⟩, H2, H3, H8, H9⟩
  ihave H0 := (pointsTo_share (I := Finset.univ) (PosShare.mem_left_op_right fullShare)).2 $$ [Hl Hr]
  · isplitl [Hl] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers through every segment: the generator register at some state and the core owing
    nothing. -/
abbrev R (c : Dev nD) : sProp 𝕄 := iprop((∃ r, prngReg c r) ∗ ∃ W, owes (c : Thread nD τ) (0 : CellTallies nD τ sig Unit) W)

/-- A stretch of host operations over the ten unscoped buffers, from the contents `W`. -/
abbrev hseg (ops : List (HloOp τ sig (Elt F))) (hsub : ops.Forall fun op => op.bufs ⊆ StableHlo.tcRefs τ sig)
    (hfresh : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W R

/-- The two recasts before the region. -/
def seg0 : Pipeline.HostSeg (Name := ℕ) (U := UR sig nD τ) (pcfgs (F := F)) defs₀ 𝒱₀ L lv :=
  hseg hostOps0 hostOps0_sub (by intro _ h; (repeat (cases h with | head => rfl | tail _ h => ?_)); exact nomatch h) (W0 m ρ)

/-- The transpose and the recast after it. -/
def seg1 : Pipeline.HostSeg (Name := ℕ) (U := UR sig nD τ) (pcfgs (F := F)) defs₀ 𝒱₀ L lv :=
  hseg hostOps1 hostOps1_sub (by intro _ h; (repeat (cases h with | head => rfl | tail _ h => ?_)); exact nomatch h) (W2 m ρ)

set_option backward.isDefEq.respectTransparency.types false in
/-- The region, entered from the ten buffers at `W1` and left at `W2`: its arrays dealt out of the buffers (`deal`)
    and joined back (`join`), the generator register into the invariant and out, nothing owed, no semaphore of the
    kernel's own. -/
def reg0 : Pipeline.RegionSeg (pcfgs (F := F)) adm (dats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    rw [Pipeline.ownSems0_none]
    have hsplit := deal m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (dats m ρ) () defs₀ 𝒱₀ L lv) :=
  [.host (seg0 m ρ), .region (reg0 m ρ), .host (seg1 m ρ)]

/-- The last thread state without the `owes`: every unscoped buffer at the final contents, the generator register. -/
abbrev Tₙ (c : Dev nD) : sProp 𝕄 := iprop(StableHlo.held (c : Thread nD τ) (Pipeline.ucRefs τ sig) (W3 m ρ c) ∗ ∃ r, prngReg c r)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- From any memory with zero counters every weakly fair execution of the program terminates, nothing faulting,
    and every unscoped buffer ends at `W3`: the launch contents run through the two recasts, the region's
    write-backs, the transpose and the last recast. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (dats m ρ) () cellOf_inj emb₁ defs₀ 𝒱₀ L lv m ρ main (segs m ρ)
    (fun c Q => by rw [main_segs adm (dats m ρ) () 𝒱₀ L lv (seg0 m ρ) (seg1 m ρ) (reg0 m ρ) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Head

end
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.LibSoftmaxRow.lean ====
/-
  One row of the distributional head, on the extended reals.

  For a row of logits l_0 … l_{n-1} and bin values β_0 … β_{n-1} put
      m = max_k l_k,   e_k = exp (l_k − m),   s = Σ_k e_k.
  One program forms the reciprocal r = 1 / s once and writes e_k · r and (Σ_k e_k · β_k) · r; the other writes the
  quotients e_k / s and Σ_k (e_k / s) · β_k. When every l_k and β_k is a real number, m is real (n ≥ 1), every e_k is
  a positive real, s is a positive real, so dividing by s is multiplying by the real 1 / s, and a real factor moves
  across a finite sum of reals: the two programs agree. With an infinite entry they need not (a factor does not
  distribute over a sum that meets an infinity), which is why the entries are asked to be real.
-/
import proofs.«170842_g26946624815573_cont_9to1_241_20_alg».proof.Proof.LibRealEntries
import Idealize.ShloMosaic.PureOps.Ideal.Laws

noncomputable section

open scoped BigOperators

namespace Cert.Softmax

open Idealize.ShloMosaic Cert.Algebra

/-! ## Three literals -/

/-- The f32 pattern of −∞ is the bottom of the extended reals. -/
theorem negInf_f32 : Ideal.ofBits .f32 0xFF800000#32 = ⊥ := by simp [Ideal.ofBits, Ideal.ieee]

/-- The f32 pattern of 1.0 is 1. -/
theorem one_f32 : Ideal.ofBits .f32 0x3F800000#32 = 1 := IdealRules.sign_bit.ideal_onePat .f32

/-! ## The row -/

variable {n : ℕ}

/-- The largest logit of the row: the fold of max from −∞. -/
def rowMax (l : Fin n → EReal) : EReal := (Finset.univ : Finset (Fin n)).fold max ⊥ l

/-- The shifted exponentials. -/
def ex (l : Fin n → EReal) (k : Fin n) : EReal := Ideal.exp (l k - rowMax l)

/-- Their total. -/
def tot (l : Fin n → EReal) : EReal := ∑ k, ex l k

/-- Folding max once more with −∞ changes nothing. -/
theorem max_bot_rowMax (l : Fin n → EReal) : max ⊥ (rowMax l) = rowMax l := max_eq_right bot_le

/-- The largest of n ≥ 1 real logits is real. -/
theorem isReal_rowMax [NeZero n] (l : Fin n → EReal) (hl : ∀ k, IsReal (l k)) : IsReal (rowMax l) := by
  have hb : rowMax l ≠ ⊥ := by
    obtain ⟨a, ha⟩ := hl 0
    have h0 : l 0 ≤ rowMax l := (Finset.le_fold_max (l 0)).mpr (Or.inr ⟨0, Finset.mem_univ _, le_rfl⟩)
    intro h
    rw [h, ha] at h0
    exact absurd (le_bot_iff.mp h0) (EReal.coe_ne_bot a)
  have ht : rowMax l ≠ ⊤ := by
    have h : rowMax l < ⊤ := (Finset.fold_max_lt ⊤).mpr ⟨bot_lt_top, fun k _ => by
      obtain ⟨a, ha⟩ := hl k; rw [ha]; exact EReal.coe_lt_top a⟩
    exact h.ne
  exact ⟨(rowMax l).toReal, (EReal.coe_toReal ht hb).symm⟩

/-- With real logits a_k and real maximum M the shifted exponential is the real exp (a_k − M). -/
theorem ex_coe (l : Fin n → EReal) (a : Fin n → ℝ) (ha : ∀ k, l k = (a k : EReal)) (M : ℝ) (hM : rowMax l = (M : EReal)) (k : Fin n) :
    ex l k = ((Real.exp (a k - M) : ℝ) : EReal) := by
  unfold ex; rw [ha, hM, ← EReal.coe_sub, Ideal.exp_coe]

/-- and their total the positive real Σ exp (a_k − M). -/
theorem tot_coe [NeZero n] (l : Fin n → EReal) (a : Fin n → ℝ) (ha : ∀ k, l k = (a k : EReal)) (M : ℝ) (hM : rowMax l = (M : EReal)) :
    tot l = ((∑ k, Real.exp (a k - M) : ℝ) : EReal) ∧ 0 < ∑ k, Real.exp (a k - M) := by
  refine ⟨?_, Finset.sum_pos (fun k _ => Real.exp_pos _) ⟨0, Finset.mem_univ _⟩⟩
  unfold tot; rw [coe_sum]; exact Finset.sum_congr rfl fun k _ => ex_coe l a ha M hM k

/-- THE NORMALISED EXPONENTIAL: the product with the reciprocal of the total is the quotient by the total. -/
theorem probs_eq [NeZero n] (l : Fin n → EReal) (hl : ∀ k, IsReal (l k)) (k : Fin n) :
    ex l k * Ideal.div 1 (tot l) = Ideal.div (ex l k) (tot l) := by
  choose a ha using hl
  obtain ⟨M, hM⟩ := isReal_rowMax l fun k => ⟨a k, ha k⟩
  obtain ⟨hS, hpos⟩ := tot_coe l a ha M hM
  rw [hS, Ideal.div_coe hpos.ne', Ideal.div_coe hpos.ne', one_mul]

/-- THE EXPECTED VALUE: the reciprocal of the total applied after the weighted sum is the weighted sum of the
    quotients. -/
theorem val_eq [NeZero n] (l β : Fin n → EReal) (hl : ∀ k, IsReal (l k)) (hβ : ∀ k, IsReal (β k)) :
    (∑ k, ex l k * β k) * Ideal.div 1 (tot l) = ∑ k, Ideal.div (ex l k) (tot l) * β k := by
  choose a ha using hl
  choose bb hb using hβ
  obtain ⟨M, hM⟩ := isReal_rowMax l fun k => ⟨a k, ha k⟩
  obtain ⟨hS, hpos⟩ := tot_coe l a ha M hM
  rw [hS]
  simp only [Ideal.div_coe hpos.ne', one_mul, ex_coe l a ha M hM, hb, ← EReal.coe_mul, ← coe_sum]
  refine congrArg _ ?_
  rw [Finset.sum_mul]
  exact Finset.sum_congr rfl fun k _ => by ring

end Cert.Softmax

end
-- ==== Proof.HeadBlock.lean ====
/-
  One half of a grid point's work, read entry by entry on the extended reals.

  With W the [51, 1024] weights, X a [1024, 1024] block of x (1024 batch rows), b and β the [51, 1] columns of biases
  and bin values, batch row j of the block has the 51 logits
      l_j(k) = Σ_d W(k, d) · X(j, d) + b(k, 0).
  The body works transposed — class k down the rows, batch row j along the columns — and stores, at (k, j),
      exp (l_j(k) − max l_j) · (1 / Σ_k' exp (l_j(k') − max l_j)),
  and at position j of the value row
      (Σ_k exp (l_j(k) − max l_j) · β(k, 0)) · (1 / Σ_k' exp (l_j(k') − max l_j)).
-/
import proofs.«170842_g26946624815573_cont_9to1_241_20_alg».proof.Proof.Gen.KernelIdeal.Skeleton
import proofs.«170842_g26946624815573_cont_9to1_241_20_alg».proof.Proof.LibSoftmaxRow
import Idealize.ShloMosaic.Lib.ValueIdx
import Idealize.ShloMosaic.Lib.ValueLayout
import Idealize.ShloMosaic.Lib.Pipeline.Value
import Idealize.ShloMosaic.PureOps.Ideal.Laws

set_option maxRecDepth 65536

noncomputable section

open scoped BigOperators

namespace Cert.KernelIdeal.Block

open Cert.KernelIdeal Cert.KernelIdeal.Gen Idealize.ShloMosaic Idealize.ShloMosaic.ValueIdx Cert.Softmax

/-- The product's dimension numbers: both operands contract their second axis. -/
abbrev D : DotDims S51x1024 S1024x1024 S51x1024 := dot_S51x1024_S1024x1024_S51x1024_1_1_0_0_n_n

/-! ## The product W · Xᵀ at an entry -/

theorem lhs_0 (i : S51x1024.Idx) (q : D.contr.Idx) : (D.lhsIdx i q 0).val = (i 0).val := by
  unfold DotDims.lhsIdx
  rw [dif_neg (show ¬(0 : Fin S51x1024.rank) ∈ D.lhsBatch by decide), dif_pos (show (0 : Fin S51x1024.rank) ∈ D.lhsNonContracting by decide)]
  rfl
theorem lhs_1 (i : S51x1024.Idx) (q : D.contr.Idx) : (D.lhsIdx i q 1).val = (q ⟨0, by decide⟩).val :=
  D.lhsIdx_val_of_single rfl i q
theorem rhs_0 (i : S51x1024.Idx) (q : D.contr.Idx) : (D.rhsIdx i q 0).val = (i 1).val := by
  unfold DotDims.rhsIdx
  rw [dif_neg (show ¬(0 : Fin S1024x1024.rank) ∈ D.rhsBatch by decide), dif_pos (show (0 : Fin S1024x1024.rank) ∈ D.rhsNonContracting by decide)]
  rfl
theorem rhs_1 (i : S51x1024.Idx) (q : D.contr.Idx) : (D.rhsIdx i q 1).val = (q ⟨0, by decide⟩).val :=
  D.rhsIdx_val_of_single rfl i q

/-- The matrix-unit product into zeros at (k, j): row k of W against row j of X. -/
theorem mm_apply (w : FVec Ideal S51x1024 .f32) (x : FVec Ideal S1024x1024 .f32) (k : Fin 51) (j : Fin 1024) :
    matmul (F := Ideal) D none w x (constant (F := Ideal) S51x1024 .f32 0x00000000#32) (ix2 k j) = ∑ d : Fin 1024, w (ix2 k d) * x (ix2 j d) := by
  simp only [matmul]
  rw [Ideal.matmul_constant_zero_apply, ← Equiv.sum_comp (ValueIdx.contrEquiv1 D 1024 rfl rfl).symm]
  refine Finset.sum_congr rfl fun d _ => ?_
  have hk := ValueIdx.contrEquiv1_symm_val D 1024 rfl rfl d
  have el : D.lhsIdx (ix2 k j) ((ValueIdx.contrEquiv1 D 1024 rfl rfl).symm d) = ix2 k d := funext fun a => Fin.ext (by
    match a with
    | ⟨0, _⟩ => exact lhs_0 _ _
    | ⟨1, _⟩ => exact (lhs_1 _ _).trans hk)
  have er : D.rhsIdx (ix2 k j) ((ValueIdx.contrEquiv1 D 1024 rfl rfl).symm d) = ix2 j d := funext fun a => Fin.ext (by
    match a with
    | ⟨0, _⟩ => exact rhs_0 _ _
    | ⟨1, _⟩ => exact (rhs_1 _ _).trans hk)
  rw [el, er]

/-! ## Layout steps and column reductions at an entry -/

/-- A [51, 1] column spread across 1024 columns reads, at (k, j), the column's entry k. -/
theorem col_apply (b : FVec Ideal S51x1 .f32) (h : S51x1.ShapeCasts S51x1) (h' : S51x1.Broadcasts S51x1024) (k : Fin 51) (j : Fin 1024) :
    broadcastTo S51x1024 (shapeCast S51x1 b h) h' (ix2 k j) = b (ix2 k 0) := by
  rw [shapeCast_self]
  refine broadcastTo_apply b h' (ix2 k j) (ix2 k 0) fun ax => ?_
  match ax with
  | ⟨0, _⟩ => rfl
  | ⟨1, _⟩ => rfl

/-- A [1024] vector laid as a [1, 1024] row and spread down 51 rows reads, at (k, j), the vector's entry j. -/
theorem row_apply (v : FVec Ideal S1024 .f32) (h : S1024.ShapeCasts S1x1024) (h' : S1x1024.Broadcasts S51x1024) (k : Fin 51) (j : Fin 1024) :
    broadcastTo S51x1024 (shapeCast S1x1024 v h) h' (ix2 k j) = v (ix1 j) :=
  (broadcastTo_1b_ab_apply _ h' k j).trans (shapeCast_a_1a_apply v h 0 j)

/-- The largest entry of column j: the fold of max from −∞ over the 51 rows. -/
theorem colMax_apply (v : FVec Ideal S51x1024 .f32) (h : S51x1024.Reduces [0] S1024) (hφ) (hacc) (j : Fin 1024) :
    multiReduction (F := Ideal) .maximumf [0] S1024 v 0xFF800000#32 h hφ hacc (ix1 j) = rowMax fun k : Fin 51 => v (ix2 k j) := by
  refine (Ideal.multiReduction_maximumf_single v _ h hφ hacc (ix1 j)).trans ?_
  unfold rowMax
  rw [show FloatOps.ofBits (F := Ideal) .f32 0xFF800000#32 = ⊥ from negInf_f32]
  refine congrArg (fun f : Fin 51 → EReal => Finset.fold max ⊥ f Finset.univ) (funext fun k => ?_)
  show v (h.lift (ix1 j) k) = v (ix2 k j)
  exact congrArg v (funext fun a => Fin.ext (by match a with | ⟨0, _⟩ => rfl | ⟨1, _⟩ => rfl))

/-- The sum of column j over the 51 rows. -/
theorem colSum_apply (v : FVec Ideal S51x1024 .f32) (h : S51x1024.Reduces [0] S1024) (hφ) (hacc) (j : Fin 1024) :
    multiReduction (F := Ideal) .add [0] S1024 v 0x00000000#32 h hφ hacc (ix1 j) = ∑ k : Fin 51, v (ix2 k j) := by
  refine (Ideal.multiReduction_add_single v _ h hφ hacc (ix1 j)).trans ?_
  refine Finset.sum_congr rfl fun k _ => ?_
  exact congrArg v (funext fun a => Fin.ext (by match a with | ⟨0, _⟩ => rfl | ⟨1, _⟩ => rfl))

/-! ## The body's four steps -/

/-- Each column shifted by its largest entry and exponentiated. -/
def shiftExp (v : FVec Ideal S51x1024 .f32) : FVec Ideal S51x1024 .f32 :=
  exp (subf v (broadcastTo S51x1024 (shapeCast S1x1024 (multiReduction (F := Ideal) .maximumf [0] S1024 v 0xFF800000#32 reduces_S51x1024_S1024 (.inl rfl) rfl)
    shapeCasts_S1024_S1x1024) broadcasts_S1x1024_S51x1024))

/-- The reciprocal of each column's sum, as a [1, 1024] row. -/
def recip (e : FVec Ideal S51x1024 .f32) : FVec Ideal S1x1024 .f32 :=
  divf (broadcast S1x1024 (Scalar.ofBits (F := Ideal) .f32 0x3F800000#32))
    (shapeCast S1x1024 (multiReduction (F := Ideal) .add [0] S1024 e 0x00000000#32 reduces_S51x1024_S1024 (.inl rfl) rfl) shapeCasts_S1024_S1x1024)

/-- Each column scaled by its entry of a [1, 1024] row. -/
def scaled (e : FVec Ideal S51x1024 .f32) (r : FVec Ideal S1x1024 .f32) : FVec Ideal S51x1024 .f32 :=
  mulf e (broadcastTo S51x1024 r broadcasts_S1x1024_S51x1024)

/-- Each column's sum weighted by a [51, 1] column, times its entry of a [1, 1024] row, as a [1, 1, 1024] array. -/
def weighted (e : FVec Ideal S51x1024 .f32) (β : FVec Ideal S51x1 .f32) (r : FVec Ideal S1x1024 .f32) : FVec Ideal S1x1x1024 .f32 :=
  shapeCast S1x1x1024 (shapeCast S1024 (mulf (shapeCast S1x1024 (multiReduction (F := Ideal) .add [0] S1024
    (mulf e (broadcastTo S51x1024 (shapeCast S51x1 β shapeCasts_S51x1_S51x1) broadcasts_S51x1_S51x1024)) 0x00000000#32 reduces_S51x1024_S1024 (.inl rfl) rfl)
    shapeCasts_S1024_S1x1024) r) shapeCasts_S1x1024_S1024) shapeCasts_S1024_S1x1x1024

theorem shiftExp_apply (v : FVec Ideal S51x1024 .f32) (k : Fin 51) (j : Fin 1024) :
    shiftExp v (ix2 k j) = ex (fun k' : Fin 51 => v (ix2 k' j)) k := by
  unfold shiftExp ex
  show Ideal.exp (v (ix2 k j) - _) = _
  exact congrArg (fun z => Ideal.exp (v (ix2 k j) - z)) ((row_apply _ _ _ k j).trans (colMax_apply v _ _ _ j))

theorem recip_apply (e : FVec Ideal S51x1024 .f32) (j : Fin 1024) :
    recip e (ix2 (0 : Fin 1) j) = Ideal.div 1 (∑ k : Fin 51, e (ix2 k j)) := by
  unfold recip
  show Ideal.div (Ideal.ofBits .f32 0x3F800000#32) _ = _
  rw [one_f32]
  exact congrArg (Ideal.div 1) ((shapeCast_a_1a_apply _ _ 0 j).trans (colSum_apply e _ _ _ j))

theorem scaled_apply (e : FVec Ideal S51x1024 .f32) (r : FVec Ideal S1x1024 .f32) (k : Fin 51) (j : Fin 1024) :
    scaled e r (ix2 k j) = e (ix2 k j) * r (ix2 (0 : Fin 1) j) := by
  unfold scaled
  show e (ix2 k j) * _ = _
  exact congrArg (e (ix2 k j) * ·) (broadcastTo_1b_ab_apply r _ k j)

theorem weighted_apply (e : FVec Ideal S51x1024 .f32) (β : FVec Ideal S51x1 .f32) (r : FVec Ideal S1x1024 .f32) (j : Fin 1024) :
    weighted e β r (ix3 (0 : Fin 1) (0 : Fin 1) j) = (∑ k : Fin 51, e (ix2 k j) * β (ix2 k 0)) * r (ix2 (0 : Fin 1) j) := by
  unfold weighted
  refine (shapeCast_apply _ _ (ix3 (0 : Fin 1) (0 : Fin 1) j) (ix1 j) (by
    rw [Shape.rowMajor_val_one, Shape.rowMajor_val_three]
    show j.val = (0 * 1 + 0) * 1024 + j.val
    omega)).trans ?_
  refine (shapeCast_1a_a_apply _ _ j).trans ?_
  show _ * r (ix2 (0 : Fin 1) j) = _
  refine congrArg (· * r (ix2 (0 : Fin 1) j)) ?_
  refine (shapeCast_a_1a_apply _ _ 0 j).trans ?_
  refine (colSum_apply _ _ _ _ j).trans ?_
  refine Finset.sum_congr rfl fun k _ => ?_
  show e (ix2 k j) * _ = _
  exact congrArg (e (ix2 k j) * ·) (col_apply β _ _ k j)

/-! ## The payloads -/

/-- Batch row j's 51 logits. -/
def logit (w : FVec Ideal S51x1024 .f32) (x : FVec Ideal S1024x1024 .f32) (b : FVec Ideal S51x1 .f32) (j : Fin 1024) (k : Fin 51) : EReal :=
  (∑ d : Fin 1024, w (ix2 k d) * x (ix2 j d)) + b (ix2 k 0)

/-- The [51, 1024] array of logits the body forms: the product plus the bias column. -/
def logits (w : FVec Ideal S51x1024 .f32) (x : FVec Ideal S1024x1024 .f32) (b : FVec Ideal S51x1 .f32) : FVec Ideal S51x1024 .f32 :=
  addf (matmul (F := Ideal) D none w x (constant (F := Ideal) S51x1024 .f32 0x00000000#32))
    (broadcastTo S51x1024 (shapeCast S51x1 b shapeCasts_S51x1_S51x1) broadcasts_S51x1_S51x1024)

theorem logits_apply (w : FVec Ideal S51x1024 .f32) (x : FVec Ideal S1024x1024 .f32) (b : FVec Ideal S51x1 .f32) (k : Fin 51) (j : Fin 1024) :
    logits w x b (ix2 k j) = logit w x b j k := by
  unfold logits logit
  show matmul (F := Ideal) D none w x _ (ix2 k j) + _ = _
  rw [mm_apply]
  exact congrArg (_ + ·) (col_apply b _ _ k j)

theorem pay5_eq (w : FVec Ideal S51x1024 .f32) (x : FVec Ideal S1024x1024 .f32) (b : FVec Ideal S51x1 .f32) :
    k0_pay5 (F := Ideal) w x b = shiftExp (logits w x b) := rfl
theorem pay6_eq (w : FVec Ideal S51x1024 .f32) (x : FVec Ideal S1024x1024 .f32) (b : FVec Ideal S51x1 .f32) :
    k0_pay6 (F := Ideal) w x b = recip (k0_pay5 (F := Ideal) w x b) := rfl
theorem pay7_eq (w : FVec Ideal S51x1024 .f32) (x : FVec Ideal S1024x1024 .f32) (b : FVec Ideal S51x1 .f32) :
    k0_pay7 (F := Ideal) w x b = scaled (k0_pay5 (F := Ideal) w x b) (k0_pay6 (F := Ideal) w x b) := rfl
theorem pay8_eq (w : FVec Ideal S51x1024 .f32) (x : FVec Ideal S1024x1024 .f32) (b β : FVec Ideal S51x1 .f32) :
    k0_pay8 (F := Ideal) w x b β = weighted (k0_pay5 (F := Ideal) w x b) β (k0_pay6 (F := Ideal) w x b) := rfl
/-- The second half runs the same operations on the other block of x. -/
theorem pay3_eq (w : FVec Ideal S51x1024 .f32) (x : FVec Ideal S1024x1024 .f32) (b : FVec Ideal S51x1 .f32) :
    k0_pay3 (F := Ideal) (k0_pay9 (F := Ideal) w x) b = k0_pay7 (F := Ideal) w x b := rfl
theorem pay4_eq (w : FVec Ideal S51x1024 .f32) (x : FVec Ideal S1024x1024 .f32) (b β : FVec Ideal S51x1 .f32) :
    k0_pay4 (F := Ideal) (k0_pay9 (F := Ideal) w x) b β = k0_pay8 (F := Ideal) w x b β := rfl

theorem pay5_apply (w : FVec Ideal S51x1024 .f32) (x : FVec Ideal S1024x1024 .f32) (b : FVec Ideal S51x1 .f32) (k : Fin 51) (j : Fin 1024) :
    k0_pay5 (F := Ideal) w x b (ix2 k j) = ex (logit w x b j) k := by
  rw [pay5_eq, shiftExp_apply]
  exact congrArg (fun l => ex l k) (funext fun k' => logits_apply w x b k' j)

theorem pay6_apply (w : FVec Ideal S51x1024 .f32) (x : FVec Ideal S1024x1024 .f32) (b : FVec Ideal S51x1 .f32) (j : Fin 1024) :
    k0_pay6 (F := Ideal) w x b (ix2 (0 : Fin 1) j) = Ideal.div 1 (tot (logit w x b j)) := by
  rw [pay6_eq, recip_apply]
  exact congrArg (Ideal.div 1) (Finset.sum_congr rfl fun k _ => pay5_apply w x b k j)

/-- THE NORMALISED EXPONENTIALS the body stores, at class k and batch row j of the block. -/
theorem pay7_apply (w : FVec Ideal S51x1024 .f32) (x : FVec Ideal S1024x1024 .f32) (b : FVec Ideal S51x1 .f32) (k : Fin 51) (j : Fin 1024) :
    k0_pay7 (F := Ideal) w x b (ix2 k j) = ex (logit w x b j) k * Ideal.div 1 (tot (logit w x b j)) := by
  rw [pay7_eq, scaled_apply, pay5_apply, pay6_apply]

/-- THE EXPECTED VALUE the body stores, at batch row j of the block. -/
theorem pay8_apply (w : FVec Ideal S51x1024 .f32) (x : FVec Ideal S1024x1024 .f32) (b β : FVec Ideal S51x1 .f32) (j : Fin 1024) :
    k0_pay8 (F := Ideal) w x b β (ix3 (0 : Fin 1) (0 : Fin 1) j) = (∑ k : Fin 51, ex (logit w x b j) k * β (ix2 k 0)) * Ideal.div 1 (tot (logit w x b j)) := by
  rw [pay8_eq, weighted_apply, pay6_apply]
  exact congrArg (· * _) (Finset.sum_congr rfl fun k _ => by rw [pay5_apply])

end Cert.KernelIdeal.Block

end
-- ==== Proof.HeadValue.lean ====
/-
  The two result arrays of the region, as whole-array functions of the arrays the region is entered from.

  Grid point t stages rows 2048·t … 2048·t+1023 of x through window 0 and rows 2048·t+1024 … 2048·t+2047 through
  window 1, all of W, b and β, and writes back columns 2048·t … 2048·t+2047 of the [51, 16384] array and row t of
  the [8, 1, 2048] array. Column q of the point's block is batch row 2048·t + q of x — taken from the first staged
  block when q < 1024 and from the second otherwise — so block t of each output is block t of ONE function of the
  whole arrays, and the eight blocks tile each output.
-/
import proofs.«170842_g26946624815573_cont_9to1_241_20_alg».proof.Proof.IdealRun
import proofs.«170842_g26946624815573_cont_9to1_241_20_alg».proof.Proof.HeadBlock
import Idealize.ShloMosaic.Lib.Pipeline.Value

set_option maxRecDepth 65536

noncomputable section

open scoped BigOperators

namespace Cert.KernelIdeal.Head

open Cert.KernelIdeal Cert.KernelIdeal.Gen Cert.KernelIdeal.Block
open Idealize.ShloMosaic Idealize.ShloMosaic.TcCoe Idealize.ShloMosaic.ValueIdx Cert.Softmax
open Idealize.SL.Sem
open Idealize.ShloMosaic.Pipeline (Dat Cfg Window)

variable (m : (ℓ : Loc nD τ sig) → Buf (Elt Ideal) ℓ) (ρ : Dev nD → PrngReg)

/-! ## The grid -/

theorem t_lt (t : Fin cfg0.N) : t.val < 8 := lt_of_lt_of_eq t.isLt N_0

/-- The printed index maps, decided over the eight points. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 3) = t.val ∧ win0_6.index t (1 : Fin 3) = 0 ∧ win0_6.index t (2 : Fin 3) = 0 :=
  (by decide +kernel : ∀ t : Fin grid0.N, _)

/-- Batch row 2048·a + q: column q of grid point a's block. -/
def rowOf (a : Fin 8) (q : Fin 2048) : Fin 16384 := ⟨2048 * a.val + q.val, by have := a.isLt; have := q.isLt; omega⟩

/-! ## The input blocks at an entry -/

theorem blk_x0 (c : Dev nD) (t : Fin cfg0.N) (q d : Fin 1024) (r : Fin 16384) (hr : r.val = 2048 * t.val + q.val) :
    (iblk m ρ c 0 t : FVec Ideal S1024x1024 .f32) (ix2 q d) = V m ρ c main_arg0 (ix2 r d) := by
  obtain ⟨e0, e1, -⟩ := idx_facts t
  unfold iblk
  show V m ρ c main_arg0 (((cfg0.win 0).blk t).view.emb (ix2 q d)) = _
  refine congrArg _ (funext fun a => Fin.ext ?_)
  match a with
  | ⟨0, _⟩ => show win0_0.index t (0 : Fin 2) * 1024 + 1 * q.val = r.val; omega
  | ⟨1, _⟩ => show win0_0.index t (1 : Fin 2) * 1024 + 1 * d.val = d.val; omega

theorem blk_x1 (c : Dev nD) (t : Fin cfg0.N) (q d : Fin 1024) (r : Fin 16384) (hr : r.val = 2048 * t.val + 1024 + q.val) :
    (iblk m ρ c 1 t : FVec Ideal S1024x1024 .f32) (ix2 q d) = V m ρ c main_arg0 (ix2 r d) := by
  obtain ⟨-, -, e0, e1, -⟩ := idx_facts t
  unfold iblk
  show V m ρ c main_arg0 (((cfg0.win 1).blk t).view.emb (ix2 q d)) = _
  refine congrArg _ (funext fun a => Fin.ext ?_)
  match a with
  | ⟨0, _⟩ => show win0_1.index t (0 : Fin 2) * 1024 + 1 * q.val = r.val; omega
  | ⟨1, _⟩ => show win0_1.index t (1 : Fin 2) * 1024 + 1 * d.val = d.val; omega

theorem blk_w (c : Dev nD) (t : Fin cfg0.N) (k : Fin 51) (d : Fin 1024) :
    (iblk m ρ c 2 t : FVec Ideal S51x1024 .f32) (ix2 k d) = V m ρ c main_arg1 (ix2 k d) := by
  obtain ⟨-, -, -, -, e0, e1, -⟩ := idx_facts t
  unfold iblk
  show V m ρ c main_arg1 (((cfg0.win 2).blk t).view.emb (ix2 k d)) = _
  refine congrArg _ (funext fun a => Fin.ext ?_)
  match a with
  | ⟨0, _⟩ => show win0_2.index t (0 : Fin 2) * 51 + 1 * k.val = k.val; omega
  | ⟨1, _⟩ => show win0_2.index t (1 : Fin 2) * 1024 + 1 * d.val = d.val; omega

theorem blk_b (c : Dev nD) (t : Fin cfg0.N) (k : Fin 51) :
    (iblk m ρ c 3 t : FVec Ideal S51x1 .f32) (ix2 k 0) = V m ρ c main_call0_v0 (ix2 k 0) := by
  obtain ⟨-, -, -, -, -, -, e0, e1, -⟩ := idx_facts t
  unfold iblk
  show V m ρ c main_call0_v0 (((cfg0.win 3).blk t).view.emb (ix2 k 0)) = _
  refine congrArg _ (funext fun a => Fin.ext ?_)
  match a with
  | ⟨0, _⟩ => show win0_3.index t (0 : Fin 2) * 51 + 1 * k.val = k.val; omega
  | ⟨1, _⟩ => show win0_3.index t (1 : Fin 2) * 1 + 1 * 0 = 0; omega

theorem blk_bins (c : Dev nD) (t : Fin cfg0.N) (k : Fin 51) :
    (iblk m ρ c 4 t : FVec Ideal S51x1 .f32) (ix2 k 0) = V m ρ c main_call0_v1 (ix2 k 0) := by
  obtain ⟨-, -, -, -, -, -, -, -, e0, e1, -⟩ := idx_facts t
  unfold iblk
  show V m ρ c main_call0_v1 (((cfg0.win 4).blk t).view.emb (ix2 k 0)) = _
  refine congrArg _ (funext fun a => Fin.ext ?_)
  match a with
  | ⟨0, _⟩ => show win0_4.index t (0 : Fin 2) * 51 + 1 * k.val = k.val; omega
  | ⟨1, _⟩ => show win0_4.index t (1 : Fin 2) * 1 + 1 * 0 = 0; omega

/-! ## The whole-array functions -/

/-- Row r's logits from the arrays as the region finds them (the biases a [51, 1] column). -/
def rowLogitK (X : S16384x1024.Idx → EReal) (W : S51x1024.Idx → EReal) (B : S51x1.Idx → EReal) (r : Fin 16384) (k : Fin 51) : EReal :=
  (∑ d : Fin 1024, W (ix2 k d) * X (ix2 r d)) + B (ix2 k 0)

/-- The [51, 16384] array: class k, batch row r. -/
def GP (X : S16384x1024.Idx → EReal) (W : S51x1024.Idx → EReal) (B : S51x1.Idx → EReal) : S51x16384.Idx → EReal := fun i =>
  ex (rowLogitK X W B (i 1)) (i 0) * Ideal.div 1 (tot (rowLogitK X W B (i 1)))

/-- The [8, 1, 2048] array: grid point a, position q is batch row 2048·a + q. -/
def GV (X : S16384x1024.Idx → EReal) (W : S51x1024.Idx → EReal) (B Bn : S51x1.Idx → EReal) : S8x1x2048.Idx → EReal := fun i =>
  (∑ k : Fin 51, ex (rowLogitK X W B (rowOf (i 0) (i 2))) k * Bn (ix2 k 0)) * Ideal.div 1 (tot (rowLogitK X W B (rowOf (i 0) (i 2))))

/-! ## One grid point's block -/

/-- Column q of a point's block: from the first staged block of x below 1024, from the second from 1024 on. -/
def ptLogit (x0 x1 : FVec Ideal S1024x1024 .f32) (w : FVec Ideal S51x1024 .f32) (b : FVec Ideal S51x1 .f32) (q : Fin 2048) : Fin 51 → EReal :=
  if h : q.val < 1024 then logit w x0 b ⟨q.val, h⟩ else logit w x1 b ⟨q.val - 1024, by have := q.isLt; omega⟩

def blkP (x0 x1 : FVec Ideal S1024x1024 .f32) (w : FVec Ideal S51x1024 .f32) (b : FVec Ideal S51x1 .f32) : S51x2048.Idx → EReal := fun y =>
  ex (ptLogit x0 x1 w b (y 1)) (y 0) * Ideal.div 1 (tot (ptLogit x0 x1 w b (y 1)))

def blkV (x0 x1 : FVec Ideal S1024x1024 .f32) (w : FVec Ideal S51x1024 .f32) (b β : FVec Ideal S51x1 .f32) : S1x1x2048.Idx → EReal := fun y =>
  (∑ k : Fin 51, ex (ptLogit x0 x1 w b (y 2)) k * β (ix2 k 0)) * Ideal.div 1 (tot (ptLogit x0 x1 w b (y 2)))

theorem GP_apply (X : S16384x1024.Idx → EReal) (W : S51x1024.Idx → EReal) (B : S51x1.Idx → EReal) (k : Fin 51) (r : Fin 16384) :
    GP X W B (ix2 k r) = ex (rowLogitK X W B r) k * Ideal.div 1 (tot (rowLogitK X W B r)) := rfl
theorem GV_apply (X : S16384x1024.Idx → EReal) (W : S51x1024.Idx → EReal) (B Bn : S51x1.Idx → EReal) (a : Fin 8) (u : Fin 1) (q : Fin 2048) :
    GV X W B Bn (ix3 a u q)
      = (∑ k : Fin 51, ex (rowLogitK X W B (rowOf a q)) k * Bn (ix2 k 0)) * Ideal.div 1 (tot (rowLogitK X W B (rowOf a q))) := rfl
theorem blkP_apply (x0 x1 : FVec Ideal S1024x1024 .f32) (w : FVec Ideal S51x1024 .f32) (b : FVec Ideal S51x1 .f32) (k : Fin 51) (q : Fin 2048) :
    blkP x0 x1 w b (ix2 k q) = ex (ptLogit x0 x1 w b q) k * Ideal.div 1 (tot (ptLogit x0 x1 w b q)) := rfl
theorem blkV_apply (x0 x1 : FVec Ideal S1024x1024 .f32) (w : FVec Ideal S51x1024 .f32) (b β : FVec Ideal S51x1 .f32) (u v : Fin 1) (q : Fin 2048) :
    blkV x0 x1 w b β (ix3 u v q) = (∑ k : Fin 51, ex (ptLogit x0 x1 w b q) k * β (ix2 k 0)) * Ideal.div 1 (tot (ptLogit x0 x1 w b q)) := rfl

theorem hz2 : (![0, 0] : Fin 2 → Nat) = fun _ => 0 := funext fun a => by fin_cases a <;> rfl

theorem ptLogit_lo (x0 x1 : FVec Ideal S1024x1024 .f32) (w : FVec Ideal S51x1024 .f32) (b : FVec Ideal S51x1 .f32) (j : Fin 1024) (q : Fin 2048)
    (hq : q.val = j.val) : ptLogit x0 x1 w b q = logit w x0 b j := by
  unfold ptLogit
  rw [dif_pos (by have := j.isLt; omega)]
  exact congrArg (logit w x0 b) (Fin.ext hq)

theorem ptLogit_hi (x0 x1 : FVec Ideal S1024x1024 .f32) (w : FVec Ideal S51x1024 .f32) (b : FVec Ideal S51x1 .f32) (j : Fin 1024) (q : Fin 2048)
    (hq : q.val = 1024 + j.val) : ptLogit x0 x1 w b q = logit w x1 b j := by
  unfold ptLogit
  rw [dif_neg (by omega)]
  exact congrArg (logit w x1 b) (Fin.ext (by show q.val - 1024 = j.val; omega))

/-- Both stored pieces of the [51, 2048] block are the block's one function at their own indices. -/
theorem piecesP (x0 x1 : FVec Ideal S1024x1024 .f32) (w : FVec Ideal S51x1024 .f32) (b : FVec Ideal S51x1 .f32) :
    ∀ p ∈ ([⟨rP1, k0_pay3 (F := Ideal) (k0_pay9 (F := Ideal) (View.ld w rW) (View.ld x1 rX)) (View.ld b rC)⟩,
        ⟨rP0, k0_pay7 (F := Ideal) (View.ld w rW) (View.ld x0 rX) (View.ld b rC)⟩] : List (View.Piece (Elt Ideal) S51x2048 .f32)),
      ∀ y : p.1.shape.Idx, p.2 y = blkP x0 x1 w b (p.1.emb y) := by
  intro p hp y
  rw [View.ld_unit_zero (S := S51x1024) hz2, View.ld_unit_zero (S := S1024x1024) hz2, View.ld_unit_zero (S := S51x1) hz2,
    View.ld_unit_zero (S := S1024x1024) hz2] at hp
  rcases List.mem_cons.mp hp with rfl | hp
  · obtain ⟨k, j, rfl⟩ : ∃ (k : Fin 51) (j : Fin 1024), y = ix2 k j := ⟨y 0, y 1, eq_ix2 y⟩
    show k0_pay3 (F := Ideal) (k0_pay9 (F := Ideal) w x1) b (ix2 k j) = _
    rw [pay3_eq, pay7_apply]
    unfold blkP
    have hq : ptLogit x0 x1 w b ((rP1.emb (ix2 k j)) 1) = logit w x1 b j :=
      ptLogit_hi x0 x1 w b j _ (by show 1024 + 1 * j.val = 1024 + j.val; omega)
    have hk : (rP1.emb (ix2 k j)) 0 = k := Fin.ext (by show 0 + 1 * k.val = k.val; omega)
    rw [hq, hk]
  · obtain rfl := List.mem_singleton.mp hp
    obtain ⟨k, j, rfl⟩ : ∃ (k : Fin 51) (j : Fin 1024), y = ix2 k j := ⟨y 0, y 1, eq_ix2 y⟩
    show k0_pay7 (F := Ideal) w x0 b (ix2 k j) = _
    rw [pay7_apply]
    unfold blkP
    have hq : ptLogit x0 x1 w b ((rP0.emb (ix2 k j)) 1) = logit w x0 b j :=
      ptLogit_lo x0 x1 w b j _ (by show 0 + 1 * j.val = j.val; omega)
    have hk : (rP0.emb (ix2 k j)) 0 = k := Fin.ext (by show 0 + 1 * k.val = k.val; omega)
    rw [hq, hk]

/-- Likewise for the [1, 1, 2048] block. -/
theorem piecesV (x0 x1 : FVec Ideal S1024x1024 .f32) (w : FVec Ideal S51x1024 .f32) (b β : FVec Ideal S51x1 .f32) :
    ∀ p ∈ ([⟨rV1, k0_pay4 (F := Ideal) (k0_pay9 (F := Ideal) (View.ld w rW) (View.ld x1 rX)) (View.ld b rC) (View.ld β rC)⟩,
        ⟨rV0, k0_pay8 (F := Ideal) (View.ld w rW) (View.ld x0 rX) (View.ld b rC) (View.ld β rC)⟩] : List (View.Piece (Elt Ideal) S1x1x2048 .f32)),
      ∀ y : p.1.shape.Idx, p.2 y = blkV x0 x1 w b β (p.1.emb y) := by
  intro p hp y
  rw [View.ld_unit_zero (S := S51x1024) hz2, View.ld_unit_zero (S := S1024x1024) hz2, View.ld_unit_zero (S := S51x1) hz2,
    View.ld_unit_zero (S := S51x1) hz2, View.ld_unit_zero (S := S1024x1024) hz2] at hp
  rcases List.mem_cons.mp hp with rfl | hp
  · obtain ⟨u, v, j, rfl⟩ : ∃ (u v : Fin 1) (j : Fin 1024), y = ix3 u v j := ⟨y 0, y 1, y 2, eq_ix3 y⟩
    obtain rfl : u = 0 := Subsingleton.elim _ _
    obtain rfl : v = 0 := Subsingleton.elim _ _
    show k0_pay4 (F := Ideal) (k0_pay9 (F := Ideal) w x1) b β (ix3 0 0 j) = _
    rw [pay4_eq, pay8_apply]
    unfold blkV
    have hq : ptLogit x0 x1 w b ((rV1.emb (ix3 (0 : Fin 1) (0 : Fin 1) j)) 2) = logit w x1 b j :=
      ptLogit_hi x0 x1 w b j _ (by show 1024 + 1 * j.val = 1024 + j.val; omega)
    rw [hq]
  · obtain rfl := List.mem_singleton.mp hp
    obtain ⟨u, v, j, rfl⟩ : ∃ (u v : Fin 1) (j : Fin 1024), y = ix3 u v j := ⟨y 0, y 1, y 2, eq_ix3 y⟩
    obtain rfl : u = 0 := Subsingleton.elim _ _
    obtain rfl : v = 0 := Subsingleton.elim _ _
    show k0_pay8 (F := Ideal) w x0 b β (ix3 0 0 j) = _
    rw [pay8_apply]
    unfold blkV
    have hq : ptLogit x0 x1 w b ((rV0.emb (ix3 (0 : Fin 1) (0 : Fin 1) j)) 2) = logit w x0 b j :=
      ptLogit_lo x0 x1 w b j _ (by show 0 + 1 * j.val = j.val; omega)
    rw [hq]

/-! ## Block t of the whole-array functions -/

/-- Column q of point t's block is batch row 2048·t + q of the whole arrays. -/
theorem ptLogit_eq (c : Dev nD) (t : Fin cfg0.N) (q : Fin 2048) :
    ptLogit (iblk m ρ c 0 t) (iblk m ρ c 1 t) (iblk m ρ c 2 t) (iblk m ρ c 3 t) q
      = rowLogitK (V m ρ c main_arg0) (V m ρ c main_arg1) (V m ρ c main_call0_v0) (rowOf ⟨t.val, t_lt t⟩ q) := by
  funext k
  by_cases h : q.val < 1024
  · rw [ptLogit_lo _ _ _ _ ⟨q.val, h⟩ q rfl]
    unfold logit rowLogitK
    refine congrArg₂ (· + ·) (Finset.sum_congr rfl fun d _ => ?_) (blk_b m ρ c t k)
    rw [blk_w, blk_x0 m ρ c t ⟨q.val, h⟩ d (rowOf ⟨t.val, t_lt t⟩ q) rfl]
  · rw [ptLogit_hi _ _ _ _ ⟨q.val - 1024, by have := q.isLt; omega⟩ q (by show q.val = 1024 + (q.val - 1024); omega)]
    unfold logit rowLogitK
    refine congrArg₂ (· + ·) (Finset.sum_congr rfl fun d _ => ?_) (blk_b m ρ c t k)
    rw [blk_w, blk_x1 m ρ c t ⟨q.val - 1024, by have := q.isLt; omega⟩ d (rowOf ⟨t.val, t_lt t⟩ q)
      (by show 2048 * t.val + q.val = 2048 * t.val + 1024 + (q.val - 1024); omega)]

/-- WHAT POINT t WRITES BACK to the [51, 16384] array is block t of `GP`. -/
theorem flushedP (c : Dev nD) (t : Fin cfg0.N) :
    (dats m ρ 0 c).flushed 5 t
      = ((cfg0.win 5).blk t).view.read (Elt Ideal) (GP (V m ρ c main_arg0) (V m ρ c main_arg1) (V m ρ c main_call0_v0)) := by
  show (cfg0.win 5).cut (grid0.coords t) ((dats m ρ 0 c).after 5 t) = _
  rw [after_5]
  obtain ⟨-, -, -, -, -, -, -, -, -, -, e0, e1, -⟩ := idx_facts t
  funext y
  obtain ⟨k, q, rfl⟩ : ∃ (k : Fin 51) (q : Fin 2048), y = ix2 k q := ⟨y 0, y 1, eq_ix2 y⟩
  have he : ((cfg0.win 5).blk t).view.emb (ix2 k q) = (ix2 k (rowOf ⟨t.val, t_lt t⟩ q) : S51x16384.Idx) := funext fun a => Fin.ext (by
    match a with
    | ⟨0, _⟩ => show win0_5.index t (0 : Fin 2) * 51 + 1 * k.val = k.val; omega
    | ⟨1, _⟩ => show win0_5.index t (1 : Fin 2) * 2048 + 1 * q.val = 2048 * t.val + q.val; omega)
  show outP (iblk m ρ c 0 t) (iblk m ρ c 1 t) (iblk m ρ c 2 t) (iblk m ρ c 3 t) (ix2 k q)
    = GP (V m ρ c main_arg0) (V m ρ c main_arg1) (V m ρ c main_call0_v0) (((cfg0.win 5).blk t).view.emb (ix2 k q))
  rw [he, GP_apply]
  unfold outP
  rw [View.canon_apply_of_pieces (blkP (iblk m ρ c 0 t) (iblk m ρ c 1 t) (iblk m ρ c 2 t) (iblk m ρ c 3 t)) _
    (piecesP _ _ _ _) (ix2 k q) (coverP _ _ _), blkP_apply, ptLogit_eq]

/-- WHAT POINT t WRITES BACK to the [8, 1, 2048] array is block t of `GV`. -/
theorem flushedV (c : Dev nD) (t : Fin cfg0.N) :
    (dats m ρ 0 c).flushed 6 t
      = ((cfg0.win 6).blk t).view.read (Elt Ideal)
          (GV (V m ρ c main_arg0) (V m ρ c main_arg1) (V m ρ c main_call0_v0) (V m ρ c main_call0_v1)) := by
  show (cfg0.win 6).cut (grid0.coords t) ((dats m ρ 0 c).after 6 t) = _
  rw [after_6]
  obtain ⟨-, -, -, -, -, -, -, -, -, -, -, -, e0, e1, e2⟩ := idx_facts t
  funext y
  obtain ⟨u, v, q, rfl⟩ : ∃ (u v : Fin 1) (q : Fin 2048), y = ix3 u v q := ⟨y 0, y 1, y 2, eq_ix3 y⟩
  obtain rfl : u = 0 := Subsingleton.elim _ _
  obtain rfl : v = 0 := Subsingleton.elim _ _
  have he : ((cfg0.win 6).blk t).view.emb (ix3 (0 : Fin 1) (0 : Fin 1) q)
      = (ix3 (⟨t.val, t_lt t⟩ : Fin 8) (0 : Fin 1) q : S8x1x2048.Idx) := funext fun a => Fin.ext (by
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 2048 + 1 * q.val = q.val; omega)
  show outV (iblk m ρ c 0 t) (iblk m ρ c 1 t) (iblk m ρ c 2 t) (iblk m ρ c 3 t) (iblk m ρ c 4 t) (ix3 0 0 q)
    = GV (V m ρ c main_arg0) (V m ρ c main_arg1) (V m ρ c main_call0_v0) (V m ρ c main_call0_v1)
        (((cfg0.win 6).blk t).view.emb (ix3 (0 : Fin 1) (0 : Fin 1) q))
  rw [he, GV_apply]
  unfold outV
  rw [View.canon_apply_of_pieces (blkV (iblk m ρ c 0 t) (iblk m ρ c 1 t) (iblk m ρ c 2 t) (iblk m ρ c 3 t) (iblk m ρ c 4 t)) _
    (piecesV _ _ _ _ _) (ix3 0 0 q) (coverV _ _ _), blkV_apply, ptLogit_eq]
  refine congrArg (· * _) (Finset.sum_congr rfl fun k _ => ?_)
  exact congrArg (ex _ k * ·) (blk_bins m ρ c t k)

/-! ## The eight blocks tile each array -/

theorem mem_blkP (t : Fin cfg0.N) (i : S51x16384.Idx) :
    i ∈ ((cfg0.win 5).blk t).view.set ↔ ∀ a : Fin 2, win0_5.index t a * S51x2048.size a ≤ (i a).val ∧ (i a).val < win0_5.index t a * S51x2048.size a + S51x2048.size a := by
  show i ∈ ((View.whole main_call0_v2_0).slice (win0_5.rect t)).set ↔ _
  rw [View.set_slice_whole, Rect.mem_set_unit]
  exact Iff.rfl

theorem mem_blkV (t : Fin cfg0.N) (i : S8x1x2048.Idx) :
    i ∈ ((cfg0.win 6).blk t).view.set ↔ ∀ a : Fin 3, win0_6.index t a * S1x1x2048.size a ≤ (i a).val ∧ (i a).val < win0_6.index t a * S1x1x2048.size a + S1x1x2048.size a := by
  show i ∈ ((View.whole main_call0_v2_1).slice (win0_6.rect t)).set ↔ _
  rw [View.set_slice_whole, Rect.mem_set_unit]
  exact Iff.rfl

theorem coverArrP (i : S51x16384.Idx) : ∃ t : Fin cfg0.N, (cfg0.win 5).flush t = true ∧ i ∈ ((cfg0.win 5).blk t).view.set := by
  have hi0 : (i 0).val < 51 := (i 0).isLt
  have hi1 : (i 1).val < 16384 := (i 1).isLt
  let t : Fin cfg0.N := ⟨(i 1).val / 2048, lt_of_lt_of_eq (by omega : (i 1).val / 2048 < 8) N_0.symm⟩
  obtain ⟨-, -, -, -, -, -, -, -, -, -, e0, e1, -⟩ := idx_facts t
  have ht : t.val = (i 1).val / 2048 := rfl
  refine ⟨t, flush0_5 t, (mem_blkP t i).mpr fun a => ?_⟩
  match a with
  | ⟨0, _⟩ => show win0_5.index t (0 : Fin 2) * 51 ≤ (i 0).val ∧ (i 0).val < win0_5.index t (0 : Fin 2) * 51 + 51; omega
  | ⟨1, _⟩ => show win0_5.index t (1 : Fin 2) * 2048 ≤ (i 1).val ∧ (i 1).val < win0_5.index t (1 : Fin 2) * 2048 + 2048; omega

theorem coverArrV (i : S8x1x2048.Idx) : ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 2048 := (i 2).isLt
  let t : Fin cfg0.N := ⟨(i 0).val, lt_of_lt_of_eq hi0 N_0.symm⟩
  obtain ⟨-, -, -, -, -, -, -, -, -, -, -, -, e0, e1, e2⟩ := idx_facts t
  have ht : t.val = (i 0).val := rfl
  refine ⟨t, flush0_6 t, (mem_blkV t i).mpr fun a => ?_⟩
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 2048 ≤ (i 2).val ∧ (i 2).val < win0_6.index t (2 : Fin 3) * 2048 + 2048; omega

/-! ## The arrays after the region -/

/-- THE [51, 16384] ARRAY after the eight write-backs. -/
theorem finalP (c : Dev nD) :
    (dats m ρ 0 c).arrAt 5 cfg0.N = GP (V m ρ c main_arg0) (V m ρ c main_arg1) (V m ρ c main_call0_v0) :=
  (dats m ρ 0 c).arrAt_eq_of_cover 5 _ (fun t _ => flushedP m ρ c t) coverArrP

/-- THE [8, 1, 2048] ARRAY after the eight write-backs. -/
theorem finalV (c : Dev nD) :
    (dats m ρ 0 c).arrAt 6 cfg0.N = GV (V m ρ c main_arg0) (V m ρ c main_arg1) (V m ρ c main_call0_v0) (V m ρ c main_call0_v1) :=
  (dats m ρ 0 c).arrAt_eq_of_cover 6 _ (fun t _ => flushedV m ρ c t) coverArrV

end Cert.KernelIdeal.Head

end
-- ==== Proof.IdealReads.lean ====
/-
  What the program ends with, buffer by buffer: the four argument arrays as launched (no operation writes them), the
  first result the transpose of the region's [51, 16384] array, the second the region's [8, 1, 2048] array recast as
  [16384]; and what the region is entered from: x and W as launched, b and β recast as [51, 1] columns.
-/
import proofs.«170842_g26946624815573_cont_9to1_241_20_alg».proof.Proof.IdealRun

set_option maxRecDepth 65536

noncomputable section

namespace Cert.KernelIdeal.Head

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-! ## The region's entry -/

theorem V_x (c : Dev nD) : V m ρ c main_arg0 = m ((c.tc : Thread nD τ).loc main_arg0) := by
  show StableHlo.after hostOps0 (W0 m ρ c) (Proc.devRef .tc main_arg0) = _
  after_results <;> rfl
theorem V_w (c : Dev nD) : V m ρ c main_arg1 = m ((c.tc : Thread nD τ).loc main_arg1) := by
  show StableHlo.after hostOps0 (W0 m ρ c) (Proc.devRef .tc main_arg1) = _
  after_results <;> rfl
theorem V_b (c : Dev nD) :
    V m ρ c main_call0_v0 = shapeCast S51x1 (m ((c.tc : Thread nD τ).loc main_arg2)) shapeCasts_S51_S51x1 := by
  show StableHlo.after hostOps0 (W0 m ρ c) (Proc.devRef .tc main_call0_v0) = _
  after_results <;> rfl
theorem V_bins (c : Dev nD) :
    V m ρ c main_call0_v1 = shapeCast S51x1 (m ((c.tc : Thread nD τ).loc main_arg3)) shapeCasts_S51_S51x1 := by
  show StableHlo.after hostOps0 (W0 m ρ c) (Proc.devRef .tc main_call0_v1) = _
  after_results <;> rfl

/-! ## The program's end -/

/-- Argument 0 ends as launched. -/
theorem W3_arg0 (c : Dev nD) : W3 m ρ c (Proc.devRef .tc main_arg0) = m ((c.tc : Thread nD τ).loc main_arg0) := by
  have h : W3 m ρ c (Proc.devRef .tc main_arg0) = W2 m ρ c (Proc.devRef .tc main_arg0) := by
    show StableHlo.after hostOps1 (W2 m ρ c) (Proc.devRef .tc main_arg0) = _
    after_results <;> rfl
  rw [h, W2_of_ne m ρ c main_arg0 (by decide) (by decide)]
  show StableHlo.after hostOps0 (W0 m ρ c) (Proc.devRef .tc main_arg0) = _
  after_results <;> rfl

/-- Argument 1 ends as launched. -/
theorem W3_arg1 (c : Dev nD) : W3 m ρ c (Proc.devRef .tc main_arg1) = m ((c.tc : Thread nD τ).loc main_arg1) := by
  have h : W3 m ρ c (Proc.devRef .tc main_arg1) = W2 m ρ c (Proc.devRef .tc main_arg1) := by
    show StableHlo.after hostOps1 (W2 m ρ c) (Proc.devRef .tc main_arg1) = _
    after_results <;> rfl
  rw [h, W2_of_ne m ρ c main_arg1 (by decide) (by decide)]
  show StableHlo.after hostOps0 (W0 m ρ c) (Proc.devRef .tc main_arg1) = _
  after_results <;> rfl

/-- Argument 2 ends as launched. -/
theorem W3_arg2 (c : Dev nD) : W3 m ρ c (Proc.devRef .tc main_arg2) = m ((c.tc : Thread nD τ).loc main_arg2) := by
  have h : W3 m ρ c (Proc.devRef .tc main_arg2) = W2 m ρ c (Proc.devRef .tc main_arg2) := by
    show StableHlo.after hostOps1 (W2 m ρ c) (Proc.devRef .tc main_arg2) = _
    after_results <;> rfl
  rw [h, W2_of_ne m ρ c main_arg2 (by decide) (by decide)]
  show StableHlo.after hostOps0 (W0 m ρ c) (Proc.devRef .tc main_arg2) = _
  after_results <;> rfl

/-- Argument 3 ends as launched. -/
theorem W3_arg3 (c : Dev nD) : W3 m ρ c (Proc.devRef .tc main_arg3) = m ((c.tc : Thread nD τ).loc main_arg3) := by
  have h : W3 m ρ c (Proc.devRef .tc main_arg3) = W2 m ρ c (Proc.devRef .tc main_arg3) := by
    show StableHlo.after hostOps1 (W2 m ρ c) (Proc.devRef .tc main_arg3) = _
    after_results <;> rfl
  rw [h, W2_of_ne m ρ c main_arg3 (by decide) (by decide)]
  show StableHlo.after hostOps0 (W0 m ρ c) (Proc.devRef .tc main_arg3) = _
  after_results <;> rfl

/-- The first result: the region's [51, 16384] array, transposed. -/
theorem W3_probs (c : Dev nD) :
    W3 m ρ c (Proc.devRef .tc main_v0_0)
      = transpose S16384x51 [1, 0] (W2 m ρ c (Proc.devRef .tc main_call0_v2_0)) transposes_S51x16384_S16384x51_1_0 := by
  show StableHlo.after hostOps1 (W2 m ρ c) (Proc.devRef .tc main_v0_0) = _
  after_results <;> rfl

/-- The second result: the region's [8, 1, 2048] array, recast as [16384]. -/
theorem W3_vals (c : Dev nD) :
    W3 m ρ c (Proc.devRef .tc main_v0_1)
      = shapeCast S16384 (W2 m ρ c (Proc.devRef .tc main_call0_v2_1)) shapeCasts_S8x1x2048_S16384 := by
  show StableHlo.after hostOps1 (W2 m ρ c) (Proc.devRef .tc main_v0_1) = _
  after_results <;> rfl

end Cert.KernelIdeal.Head

end
-- ==== Proof.HeadSpec.lean ====
/-
  The distributional head as two whole-array functions.

  For x [16384, 1024], W [51, 1024], b and β [51]: row r has the 51 logits l_r(k) = Σ_d W(k, d) · x(r, d) + b(k);
  the result arrays are
      probs(r, k) = exp (l_r(k) − max l_r) / Σ_k' exp (l_r(k') − max l_r)      [16384, 51]
      vals(r)     = Σ_k probs(r, k) · β(k)                                       [16384].
-/
import proofs.«170842_g26946624815573_cont_9to1_241_20_alg».proof.Proof.LibSoftmaxRow
import Idealize.ShloMosaic.Lib.ValueIdx

noncomputable section

open scoped BigOperators

namespace Cert.Head

open Idealize.ShloMosaic Idealize.ShloMosaic.ValueIdx Cert.Softmax Cert.Algebra

abbrev SX : Shape := ⟨2, ![16384, 1024]⟩
abbrev SW : Shape := ⟨2, ![51, 1024]⟩
abbrev SC : Shape := ⟨1, ![51]⟩
abbrev SP : Shape := ⟨2, ![16384, 51]⟩
abbrev SV : Shape := ⟨1, ![16384]⟩

/-- Row r's logits. -/
def rowLogit (x : SX.Idx → EReal) (W : SW.Idx → EReal) (b : SC.Idx → EReal) (r : Fin 16384) (k : Fin 51) : EReal :=
  (∑ d : Fin 1024, W (ix2 k d) * x (ix2 r d)) + b (ix1 k)

/-- The normalised exponentials. -/
def probs (x : SX.Idx → EReal) (W : SW.Idx → EReal) (b : SC.Idx → EReal) : SP.Idx → EReal := fun i =>
  Ideal.div (ex (rowLogit x W b (i 0)) (i 1)) (tot (rowLogit x W b (i 0)))

/-- The expected bin values. -/
def vals (x : SX.Idx → EReal) (W : SW.Idx → EReal) (b β : SC.Idx → EReal) : SV.Idx → EReal := fun i =>
  ∑ k : Fin 51, Ideal.div (ex (rowLogit x W b (i 0)) k) (tot (rowLogit x W b (i 0))) * β (ix1 k)

/-- With real entries every logit is real. -/
theorem isReal_rowLogit (x : SX.Idx → EReal) (W : SW.Idx → EReal) (b : SC.Idx → EReal)
    (hx : ∀ i, IsReal (x i)) (hW : ∀ i, IsReal (W i)) (hb : ∀ i, IsReal (b i)) (r : Fin 16384) (k : Fin 51) :
    IsReal (rowLogit x W b r k) :=
  (IsReal.sum _ _ fun d _ => (hW _).mul (hx _)).add (hb _)

end Cert.Head

end
-- ==== Proof.HeadFinal.lean ====
/-
  The idealized kernel's two results are the two whole-array functions, when every input entry is real.

  The first result is the transpose of the region's [51, 16384] array, so at (r, k) it is the product
  exp (l_r(k) − max l_r) · (1 / Σ exp), the quotient by the law of the normalised exponential; the second is the
  region's [8, 1, 2048] array recast as [16384], so at r = 2048·a + q it is (Σ_k exp (l_r(k) − max l_r) · β(k)) · (1 / Σ exp),
  the sum of the quotients against the bins by the law of the expected value. The biases and the bins reach the region
  as [51, 1] columns whose entry (k, 0) is entry k of the [51] arrays.
-/
import proofs.«170842_g26946624815573_cont_9to1_241_20_alg».proof.Proof.HeadValue
import proofs.«170842_g26946624815573_cont_9to1_241_20_alg».proof.Proof.IdealReads
import proofs.«170842_g26946624815573_cont_9to1_241_20_alg».proof.Proof.HeadSpec
import Idealize.ShloMosaic.Lib.ValueLayout

set_option maxRecDepth 65536

noncomputable section

open scoped BigOperators

namespace Cert.KernelIdeal.Head

open Cert.KernelIdeal Cert.KernelIdeal.Gen Cert.KernelIdeal.Block
open Idealize.ShloMosaic Idealize.ShloMosaic.TcCoe Idealize.ShloMosaic.ValueIdx Cert.Softmax Cert.Algebra
open Idealize.SL.Sem

variable (m : (ℓ : Loc nD τ sig) → Buf (Elt Ideal) ℓ) (ρ : Dev nD → PrngReg)

/-- A [51] array recast as a [51, 1] column reads, at (k, 0), entry k. -/
theorem column_apply (v : S51.Idx → EReal) (h : S51.ShapeCasts S51x1) (k : Fin 51) : shapeCast S51x1 v h (ix2 k 0) = v (ix1 k) :=
  shapeCast_apply v h (ix2 k 0) (ix1 k) (by
    rw [Shape.rowMajor_val_one, Shape.rowMajor_val_two]
    show k.val = k.val * 1 + 0
    omega)

/-- Row r's logits, from the region's entry arrays, are its logits from the launch arrays. -/
theorem rowLogitK_eq (c : Dev nD) (r : Fin 16384) :
    rowLogitK (V m ρ c main_arg0) (V m ρ c main_arg1) (V m ρ c main_call0_v0) r
      = Cert.Head.rowLogit (m ((c.tc : Thread nD τ).loc main_arg0)) (m ((c.tc : Thread nD τ).loc main_arg1)) (m ((c.tc : Thread nD τ).loc main_arg2)) r := by
  funext k
  unfold rowLogitK Cert.Head.rowLogit
  rw [V_x, V_w, V_b]
  exact congrArg (_ + ·) (column_apply _ _ k)

/-- THE FIRST RESULT of the idealized kernel. -/
theorem kernel_probs (c : Dev nD)
    (hx : ∀ i, IsReal (m ((c.tc : Thread nD τ).loc main_arg0) i)) (hw : ∀ i, IsReal (m ((c.tc : Thread nD τ).loc main_arg1) i))
    (hb : ∀ i, IsReal (m ((c.tc : Thread nD τ).loc main_arg2) i)) :
    W3 m ρ c (Proc.devRef .tc main_v0_0)
      = Cert.Head.probs (m ((c.tc : Thread nD τ).loc main_arg0)) (m ((c.tc : Thread nD τ).loc main_arg1)) (m ((c.tc : Thread nD τ).loc main_arg2)) := by
  rw [W3_probs, W2_probs, finalP]
  funext i
  obtain ⟨r, k, rfl⟩ : ∃ (r : Fin 16384) (k : Fin 51), i = ix2 r k := ⟨i 0, i 1, eq_ix2 i⟩
  rw [transpose_ix2_apply, GP_apply, rowLogitK_eq]
  exact probs_eq _ (fun k' => Cert.Head.isReal_rowLogit _ _ _ hx hw hb r k') k

/-- THE SECOND RESULT of the idealized kernel. -/
theorem kernel_vals (c : Dev nD)
    (hx : ∀ i, IsReal (m ((c.tc : Thread nD τ).loc main_arg0) i)) (hw : ∀ i, IsReal (m ((c.tc : Thread nD τ).loc main_arg1) i))
    (hb : ∀ i, IsReal (m ((c.tc : Thread nD τ).loc main_arg2) i)) (hβ : ∀ i, IsReal (m ((c.tc : Thread nD τ).loc main_arg3) i)) :
    W3 m ρ c (Proc.devRef .tc main_v0_1)
      = Cert.Head.vals (m ((c.tc : Thread nD τ).loc main_arg0)) (m ((c.tc : Thread nD τ).loc main_arg1)) (m ((c.tc : Thread nD τ).loc main_arg2))
          (m ((c.tc : Thread nD τ).loc main_arg3)) := by
  rw [W3_vals, W2_vals, finalV]
  funext i
  obtain ⟨r, rfl⟩ : ∃ r : Fin 16384, i = ix1 r := ⟨i 0, eq_ix1 i⟩
  have hr := r.isLt
  have ha : r.val / 2048 < 8 := by omega
  have hq : r.val % 2048 < 2048 := Nat.mod_lt _ (by norm_num)
  rw [shapeCast_apply _ _ (ix1 r) (ix3 (⟨r.val / 2048, ha⟩ : Fin 8) (0 : Fin 1) (⟨r.val % 2048, hq⟩ : Fin 2048)) (by
    rw [Shape.rowMajor_val_one, Shape.rowMajor_val_three]
    show (r.val / 2048 * 1 + 0) * 2048 + r.val % 2048 = r.val
    omega)]
  rw [GV_apply]
  have hrow : rowOf ⟨r.val / 2048, ha⟩ ⟨r.val % 2048, hq⟩ = r := Fin.ext (by show 2048 * (r.val / 2048) + r.val % 2048 = r.val; omega)
  rw [hrow, rowLogitK_eq]
  have hcol : ∀ k : Fin 51, V m ρ c main_call0_v1 (ix2 k 0) = m ((c.tc : Thread nD τ).loc main_arg3) (ix1 k) := fun k => by
    rw [V_bins]; exact column_apply _ _ k
  refine Eq.trans (congrArg (· * _) (Finset.sum_congr rfl fun k _ => congrArg (_ * ·) (hcol k))) ?_
  exact val_eq _ (fun k => m ((c.tc : Thread nD τ).loc main_arg3) (ix1 k))
    (fun k' => Cert.Head.isReal_rowLogit _ _ _ hx hw hb r k') (fun k => hβ _)

end Cert.KernelIdeal.Head

end
-- ==== Proof.RefValue.lean ====
/-
  The reference computes the two whole-array functions: its operations read one at a time at an index — the
  product x · Wᵀ as a sum over the 1024 features, the bias broadcast down the rows, the row maximum as the fold
  of max from −∞, the shifted exponentials, their row sums from 0, the quotients, and the sum against the bins.
-/
import proofs.«170842_g26946624815573_cont_9to1_241_20_alg».proof.Proof.Gen.ReferenceIdeal.Read
import proofs.«170842_g26946624815573_cont_9to1_241_20_alg».proof.Proof.HeadSpec
import Idealize.ShloMosaic.PureOps.Ideal.Laws

set_option maxRecDepth 65536

noncomputable section

open scoped BigOperators

namespace Cert.ReferenceIdeal.RefValue

open Cert.ReferenceIdeal Cert.ReferenceIdeal.Gen Cert.ReferenceIdeal.Read Idealize.ShloMosaic Idealize.ShloMosaic.ValueIdx Cert.Softmax Cert.Head

local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

variable (x0 : (⟨S16384x1024, .f32⟩ : BufTy).Contents (Elt Ideal)) (x1 : (⟨S51x1024, .f32⟩ : BufTy).Contents (Elt Ideal))
  (x2 x3 : (⟨S51, .f32⟩ : BufTy).Contents (Elt Ideal))

/-- The logits: the product plus the bias. -/
theorem logit_apply (r : Fin 16384) (k : Fin 51) : val_main_v4 (F := Ideal) x0 x1 x2 (ix2 r k) = rowLogit x0 x1 x2 r k := by
  rw [val_main_v4_apply, val_main_v1_apply, val_main_v3_apply, val_main_v2_apply]
  unfold rowLogit
  show (∑ d : Fin 1024, _) + _ = _
  refine congrArg₂ (· + ·) (Finset.sum_congr rfl fun d _ => ?_) ?_
  · rw [val_main_v0_apply, mul_comm]
    refine congrArg₂ (· * ·) (congrArg x1 ?_) (congrArg x0 ?_)
    · idx2
    · idx2
  · refine congrArg x2 ?_
    idx1

/-- The host's maximum along the classes is the fold of max from −∞. -/
theorem hostMax_apply (v : (⟨S16384x51, .f32⟩ : BufTy).Contents (Elt Ideal)) (r : Fin 16384) :
    Host.reduce (FloatOps.maximumf (F := Ideal) (φ := .f32)) v (val_main_cst (F := Ideal)) reducesTo_S16384x51_S16384_d1 h_S_ (ix1 r)
      = rowMax fun k : Fin 51 => v (ix2 r k) := by
  refine (Host.reduce_eq_fold_single _ v _ reducesTo_S16384x51_S16384_d1 (by decide) h_S_ (ix1 r)).trans ?_
  unfold rowMax
  show Finset.fold max (Ideal.ofBits .f32 0xFF800000#32) _ _ = _
  rw [negInf_f32]
  refine congrArg (fun f : Fin 51 → EReal => Finset.fold max ⊥ f Finset.univ) (funext fun k => ?_)
  show v _ = v (ix2 r k)
  refine congrArg v ?_
  idx2

theorem max_apply (r : Fin 16384) : val_main_v7 (F := Ideal) x0 x1 x2 (ix1 r) = rowMax (rowLogit x0 x1 x2 r) := by
  rw [val_main_v7_apply, val_main_v6_apply, val_main_cst_0_apply]
  show max (Ideal.ofBits .f32 0xFF800000#32) (val_main_v5 (F := Ideal) x0 x1 x2 (ix1 r)) = _
  rw [negInf_f32]
  unfold val_main_v5
  rw [hostMax_apply, max_bot_rowMax]
  exact congrArg rowMax (funext fun k => logit_apply x0 x1 x2 r k)

/-- The shifted exponentials. -/
theorem exp_apply (r : Fin 16384) (k : Fin 51) : val_main_v11 (F := Ideal) x0 x1 x2 (ix2 r k) = ex (rowLogit x0 x1 x2 r) k := by
  rw [val_main_v11_apply, val_main_v10_apply, val_main_v9_apply, val_main_v8_apply, logit_apply]
  unfold ex
  show Ideal.exp (_ - val_main_v7 (F := Ideal) x0 x1 x2 _) = _
  rw [show idx_main_v8 (idx_main_v9 (ix2 r k)) = ix1 r from by idx1, max_apply]

/-- Their row sums. -/
theorem tot_apply (r : Fin 16384) : val_main_v12 (F := Ideal) x0 x1 x2 (ix1 r) = tot (rowLogit x0 x1 x2 r) := by
  rw [val_main_v12_apply, val_main_cst_1_apply]
  show Ideal.ofBits .f32 0x00000000#32 + _ = _
  rw [Ideal.ofBits_zero_f32, zero_add]
  unfold tot
  refine Finset.sum_congr rfl fun k _ => ?_
  rw [show idx_main_v12 (ix1 r) k = ix2 r k from by idx2, exp_apply]

/-- The quotients. -/
theorem probs_apply (r : Fin 16384) (k : Fin 51) :
    val_main_v15 (F := Ideal) x0 x1 x2 (ix2 r k) = Ideal.div (ex (rowLogit x0 x1 x2 r) k) (tot (rowLogit x0 x1 x2 r)) := by
  rw [val_main_v15_apply, val_main_v14_apply, val_main_v13_apply, exp_apply]
  show Ideal.div _ (val_main_v12 (F := Ideal) x0 x1 x2 _) = _
  rw [show idx_main_v13 (idx_main_v14 (ix2 r k)) = ix1 r from by idx1, tot_apply]

/-- THE FIRST RESULT of the reference is the array of normalised exponentials. -/
theorem ref_probs : val_main_v15 (F := Ideal) x0 x1 x2 = probs x0 x1 x2 := by
  funext i
  obtain ⟨r, k, rfl⟩ : ∃ (r : Fin 16384) (k : Fin 51), i = ix2 r k := ⟨i 0, i 1, eq_ix2 i⟩
  rw [probs_apply]; rfl

/-- THE SECOND RESULT of the reference is the array of expected values. -/
theorem ref_vals : val_main_v19 (F := Ideal) x0 x1 x2 x3 = vals x0 x1 x2 x3 := by
  funext i
  obtain ⟨r, rfl⟩ : ∃ r : Fin 16384, i = ix1 r := ⟨i 0, eq_ix1 i⟩
  rw [val_main_v19_apply, val_main_cst_2_apply]
  show Ideal.ofBits .f32 0x00000000#32 + _ = _
  rw [Ideal.ofBits_zero_f32, zero_add]
  unfold vals
  refine Finset.sum_congr rfl fun k _ => ?_
  rw [show idx_main_v19 (ix1 r) k = ix2 r k from by idx2, val_main_v18_apply, probs_apply, val_main_v17_apply, val_main_v16_apply]
  show _ * x3 _ = _
  refine congrArg (_ * ·) (congrArg x3 ?_)
  idx1

end Cert.ReferenceIdeal.RefValue

end
-- ==== Proof.Finite.lean ====
/-
  Finite inputs are real: the precondition says of each input a that every |a_i| is below +∞ (one conjunction of
  four "all" reductions), so no entry is +∞ or −∞, that is, every entry is a real number.
-/
import proofs.«170842_g26946624815573_cont_9to1_241_20_alg».proof.Pre_finite_inputs
import proofs.«170842_g26946624815573_cont_9to1_241_20_alg».proof.Proof.LibRealEntries
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Algebra Cert.Pre_finite_inputs

/-- The f32 pattern of +∞ is the top of the extended reals. -/
theorem posInf_f32 : Ideal.ofBits .f32 0x7F800000#32 = ⊤ := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [posInf_f32] at h
  have hlt : max x (-x) < ⊤ := by
    by_contra hn
    have : Ideal.cmp .olt (max x (-x)) ⊤ = 0#1 := by simp [Ideal.cmp, hn]
    rw [this] at h
    exact absurd h (by decide)
  have ht : x ≠ ⊤ := fun e => by rw [e] at hlt; simp at hlt
  have hb : x ≠ ⊥ := fun e => by rw [e] at hlt; simp at hlt
  exact ⟨x.toReal, (EReal.coe_toReal ht hb).symm⟩

instance : Subsingleton S_.Idx := ⟨fun a b => funext fun d => d.elim0⟩

/-- One `all (|a| < +∞)`: if the reduction by "and" is 1, every entry of a is real. -/
theorem all_real {s : Shape} {axes : List (Fin s.rank)} (a : FVec Ideal s .f32) (bc : S_.BroadcastsInDim s (![] : Fin 0 → Fin s.rank))
    (rd : s.ReducesTo axes S_) (hu : 0 < S_.numel) (init : S_.Idx → BitVec 1)
    (e : Host.reduce IntOp.andi (cmpf .olt (Host.absf a) (broadcastInDim s ![] bc (constant (F := Ideal) S_ .f32 0x7F800000#32))) init rd hu ValueIdx.ix0 = 1#1)
    (i : s.Idx) : IsReal (a i) :=
  isReal_of_abs_lt (a i) (Host.reduce_andi_all _ init rd hu ValueIdx.ix0 e i)

variable [Cert.Pre_finite_inputs.Facts]

/-- THE PRECONDITION, decoded: every entry of every input is real. -/
theorem real_of_pre (a0 : FVec Ideal S16384x1024 .f32) (a1 : FVec Ideal S51x1024 .f32) (a2 a3 : FVec Ideal S51 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1] at h0
  obtain ⟨h012, h3⟩ := IntOp.andi_eq_one.mp (show IntOp.andi _ _ = 1#1 from h0)
  obtain ⟨h01, h2⟩ := IntOp.andi_eq_one.mp (show IntOp.andi _ _ = 1#1 from h012)
  obtain ⟨hx, hw⟩ := IntOp.andi_eq_one.mp (show IntOp.andi _ _ = 1#1 from h01)
  exact ⟨all_real a0 _ _ _ _ hx, all_real a1 _ _ _ _ hw, all_real a2 _ _ _ _ h2, all_real a3 _ _ _ _ h3⟩

end Cert.Finite

end
-- ==== Proof.lean ====
/-
  A distributional value head: logits = x · Wᵀ + b over 51 classes, probs = softmax of the logits along the classes,
  val = Σ probs · bins. The kernel computes it transposed, 2048 batch rows per grid point as two blocks of 1024 rows
  of the one array x, with the reciprocal of each row's total formed once and multiplied in; the reference divides.

  The three frames: each program terminates without fault and leaves its four arguments as launched — the kernels'
  by their run through the two recasts, the region and the transpose and recast after it; the reference's by its
  run of host operations. The idealization rewrote nothing, so it preserves the kernel trivially. On the extended
  reals, with every input entry real (the precondition), the kernel's e · (1 / s) is the reference's e / s and its
  (Σ e · β) · (1 / s) is the reference's Σ (e / s) · β: both programs end with the same two arrays.
-/
import proofs.«170842_g26946624815573_cont_9to1_241_20_alg».proof.Defs
import proofs.«170842_g26946624815573_cont_9to1_241_20_alg».proof.Proof.Gen.Kernel
import proofs.«170842_g26946624815573_cont_9to1_241_20_alg».proof.Proof.Gen.KernelIdeal
import proofs.«170842_g26946624815573_cont_9to1_241_20_alg».proof.Proof.Gen.ReferenceIdeal
import proofs.«170842_g26946624815573_cont_9to1_241_20_alg».proof.Proof.Gen.Pre_finite_inputs
import proofs.«170842_g26946624815573_cont_9to1_241_20_alg».proof.Proof.Gen.ReferenceIdeal.Run
import proofs.«170842_g26946624815573_cont_9to1_241_20_alg».proof.Proof.Gen.ReferenceIdeal.Read
import proofs.«170842_g26946624815573_cont_9to1_241_20_alg».proof.Proof.BitsReads
import proofs.«170842_g26946624815573_cont_9to1_241_20_alg».proof.Proof.HeadFinal
import proofs.«170842_g26946624815573_cont_9to1_241_20_alg».proof.Proof.RefValue
import proofs.«170842_g26946624815573_cont_9to1_241_20_alg».proof.Proof.Finite
import Idealize.ShloMosaic.Adequacy
import Idealize.ShloMosaic.Init

set_option maxRecDepth 65536

noncomputable section

namespace Cert.Proof

open Idealize.ShloMosaic Idealize.SL.Sem

/-- The word-level kernel runs and leaves its arguments as launched. -/
theorem frame_k : Cert.frame_Kernel := fun m ρ _ =>
  (θ_run (Cert.Kernel.defs (F := Bits)) _ _).mono (fun r h c =>
    ⟨(h c _ (Cert.Kernel.Head.mem_uc Cert.Kernel.main_arg0 (by decide))).trans (Cert.Kernel.Head.W3_arg0 m ρ c),
      (h c _ (Cert.Kernel.Head.mem_uc Cert.Kernel.main_arg1 (by decide))).trans (Cert.Kernel.Head.W3_arg1 m ρ c),
      (h c _ (Cert.Kernel.Head.mem_uc Cert.Kernel.main_arg2 (by decide))).trans (Cert.Kernel.Head.W3_arg2 m ρ c),
      (h c _ (Cert.Kernel.Head.mem_uc Cert.Kernel.main_arg3 (by decide))).trans (Cert.Kernel.Head.W3_arg3 m ρ c)⟩)
    (Cert.Kernel.Head.run_main (F := Bits) m ρ)

/-- So does the idealized kernel. -/
theorem frame_ki : Cert.frame_KernelIdeal := fun m ρ _ =>
  (θ_run (Cert.KernelIdeal.defs (F := Ideal)) _ _).mono (fun r h c =>
    ⟨(h c _ (Cert.KernelIdeal.Head.mem_uc Cert.KernelIdeal.main_arg0 (by decide))).trans (Cert.KernelIdeal.Head.W3_arg0 m ρ c),
      (h c _ (Cert.KernelIdeal.Head.mem_uc Cert.KernelIdeal.main_arg1 (by decide))).trans (Cert.KernelIdeal.Head.W3_arg1 m ρ c),
      (h c _ (Cert.KernelIdeal.Head.mem_uc Cert.KernelIdeal.main_arg2 (by decide))).trans (Cert.KernelIdeal.Head.W3_arg2 m ρ c),
      (h c _ (Cert.KernelIdeal.Head.mem_uc Cert.KernelIdeal.main_arg3 (by decide))).trans (Cert.KernelIdeal.Head.W3_arg3 m ρ c)⟩)
    (Cert.KernelIdeal.Head.run_main (F := Ideal) m ρ)

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the array of normalised exponentials and the array of expected values of the
    launch arrays: the kernel's by the two laws of a row with real entries, the reference's operation by operation. -/
theorem algebraic : Cert.algebraic_KernelIdeal_ReferenceIdeal := by
  intro m ρ m' ρ' hpre hagree
  refine ⟨fun c => Cert.Head.probs (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.Head.vals (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run (Cert.KernelIdeal.defs (F := Ideal)) _ _).mono (fun r h c => ?_) (Cert.KernelIdeal.Head.run_main (F := Ideal) m ρ)
    obtain ⟨hx, hw, hb, hβ⟩ := Cert.Finite.real_of_pre _ _ _ _ (hpre c)
    exact ⟨(h c _ (Cert.KernelIdeal.Head.mem_uc Cert.KernelIdeal.main_v0_0 (by decide))).trans (Cert.KernelIdeal.Head.kernel_probs m ρ c hx hw hb),
      (h c _ (Cert.KernelIdeal.Head.mem_uc Cert.KernelIdeal.main_v0_1 (by decide))).trans (Cert.KernelIdeal.Head.kernel_vals m ρ c hx hw hb hβ),
      (h c _ (Cert.KernelIdeal.Head.mem_uc Cert.KernelIdeal.main_arg0 (by decide))).trans (Cert.KernelIdeal.Head.W3_arg0 m ρ c),
      (h c _ (Cert.KernelIdeal.Head.mem_uc Cert.KernelIdeal.main_arg1 (by decide))).trans (Cert.KernelIdeal.Head.W3_arg1 m ρ c),
      (h c _ (Cert.KernelIdeal.Head.mem_uc Cert.KernelIdeal.main_arg2 (by decide))).trans (Cert.KernelIdeal.Head.W3_arg2 m ρ c),
      (h c _ (Cert.KernelIdeal.Head.mem_uc Cert.KernelIdeal.main_arg3 (by decide))).trans (Cert.KernelIdeal.Head.W3_arg3 m ρ c)⟩
  · refine (θ_run (Cert.ReferenceIdeal.defs (F := Ideal)) _ _).mono (fun r h c => ?_) (Cert.ReferenceIdeal.Value.run (F := Ideal) m' ρ')
    obtain ⟨h15, h19, ha0, ha1, ha2, ha3⟩ := h c
    obtain ⟨e0, e1, e2, e3⟩ := hagree c
    refine ⟨?_, ?_, ha0, ha1, ha2, ha3⟩
    · rw [h15, Cert.ReferenceIdeal.Read.val_main_v15_eq, Cert.ReferenceIdeal.RefValue.ref_probs, e0, e1, e2]
    · rw [h19, Cert.ReferenceIdeal.Read.val_main_v19_eq, Cert.ReferenceIdeal.RefValue.ref_vals, e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
